-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S3072x2048 : Shape := ⟨2, ![3072, 2048]⟩
abbrev S1x3x16x2048 : Shape := ⟨4, ![1, 3, 16, 2048]⟩
abbrev S1x2048x16 : Shape := ⟨3, ![1, 2048, 16]⟩
abbrev S1x512x16 : Shape := ⟨3, ![1, 512, 16]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S3072x2048 : S_.BroadcastsInDim S3072x2048 (![] : Fin 0 → Fin S3072x2048.rank)
  reducesTo_S3072x2048_S_d0_1 : S3072x2048.ReducesTo [0, 1] S_
  bcast_S_S1x3x16x2048 : S_.BroadcastsInDim S1x3x16x2048 (![] : Fin 0 → Fin S1x3x16x2048.rank)
  reducesTo_S1x3x16x2048_S_d0_1_2_3 : S1x3x16x2048.ReducesTo [0, 1, 2, 3] S_
  bcast_S_S1x2048x16 : S_.BroadcastsInDim S1x2048x16 (![] : Fin 0 → Fin S1x2048x16.rank)
  reducesTo_S1x2048x16_S_d0_1_2 : S1x2048x16.ReducesTo [0, 1, 2] S_
  bcast_S_S1x512x16 : S_.BroadcastsInDim S1x512x16 (![] : Fin 0 → Fin S1x512x16.rank)
  reducesTo_S1x512x16_S_d0_1_2 : S1x512x16.ReducesTo [0, 1, 2] S_

variable [Facts]

def fn_part1 {F : FTy → Type} [FloatOps F] (main_arg4 : FVec F S1x512x16 .f32) (main_arg5 : FVec F S1x512x16 .f32) (main_v13 : IVec S_ 1) (main_v16 : IVec S1x2048x16 1) : IVec S_ 1 :=
  let main_c_5 : IVec S_ 1 := constantI S_ 1 1#1
  let main_v17 : IVec S_ 1 := (fun x v => Host.reduce IntOp.andi x v reducesTo_S1x2048x16_S_d0_1_2 h_S_) main_v16 main_c_5
  let main_v18 : IVec S_ 1 := andi main_v13 main_v17
  let main_v19 : FVec F S1x512x16 .f32 := Host.absf main_arg4
  let main_cst_6 : FVec F S_ .f32 := constant S_ .f32 0x7F800000#32
  let main_v20 : FVec F S1x512x16 .f32 := broadcastInDim S1x512x16 ![] bcast_S_S1x512x16 main_cst_6
  let main_v21 : IVec S1x512x16 1 := cmpf .olt main_v19 main_v20
  let main_c_7 : IVec S_ 1 := constantI S_ 1 1#1
  let main_v22 : IVec S_ 1 := (fun x v => Host.reduce IntOp.andi x v reducesTo_S1x512x16_S_d0_1_2 h_S_) main_v21 main_c_7
  let main_v23 : IVec S_ 1 := andi main_v18 main_v22
  let main_v24 : FVec F S1x512x16 .f32 := Host.absf main_arg5
  let main_cst_8 : FVec F S_ .f32 := constant S_ .f32 0x7F800000#32
  let main_v25 : FVec F S1x512x16 .f32 := broadcastInDim S1x512x16 ![] bcast_S_S1x512x16 main_cst_8
  let main_v26 : IVec S1x512x16 1 := cmpf .olt main_v24 main_v25
  let main_c_9 : IVec S_ 1 := constantI S_ 1 1#1
  let main_v27 : IVec S_ 1 := (fun x v => Host.reduce IntOp.andi x v reducesTo_S1x512x16_S_d0_1_2 h_S_) main_v26 main_c_9
  let main_v28 : IVec S_ 1 := andi main_v23 main_v27
  main_v28

def fn {F : FTy → Type} [FloatOps F] (main_arg0 : FVec F S4x2048x2048 .f32) (main_arg1 : FVec F S3072x2048 .f32) (main_arg2 : FVec F S1x3x16x2048 .f32) (main_arg3 : FVec F S1x2048x16 .f32) (main_arg4 : FVec F S1x512x16 .f32) (main_arg5 : FVec F S1x512x16 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S3072x2048 .f32 := Host.absf main_arg1
  let main_cst_0 : FVec F S_ .f32 := constant S_ .f32 0x7F800000#32
  let main_v5 : FVec F S3072x2048 .f32 := broadcastInDim S3072x2048 ![] bcast_S_S3072x2048 main_cst_0
  let main_v6 : IVec S3072x2048 1 := cmpf .olt main_v4 main_v5
  let main_c_1 : IVec S_ 1 := constantI S_ 1 1#1
  let main_v7 : IVec S_ 1 := (fun x v => Host.reduce IntOp.andi x v reducesTo_S3072x2048_S_d0_1 h_S_) main_v6 main_c_1
  let main_v8 : IVec S_ 1 := andi main_v3 main_v7
  let main_v9 : FVec F S1x3x16x2048 .f32 := Host.absf main_arg2
  let main_cst_2 : FVec F S_ .f32 := constant S_ .f32 0x7F800000#32
  let main_v10 : FVec F S1x3x16x2048 .f32 := broadcastInDim S1x3x16x2048 ![] bcast_S_S1x3x16x2048 main_cst_2
  let main_v11 : IVec S1x3x16x2048 1 := cmpf .olt main_v9 main_v10
  let main_c_3 : IVec S_ 1 := constantI S_ 1 1#1
  let main_v12 : IVec S_ 1 := (fun x v => Host.reduce IntOp.andi x v reducesTo_S1x3x16x2048_S_d0_1_2_3 h_S_) main_v11 main_c_3
  let main_v13 : IVec S_ 1 := andi main_v8 main_v12
  let main_v14 : FVec F S1x2048x16 .f32 := Host.absf main_arg3
  let main_cst_4 : FVec F S_ .f32 := constant S_ .f32 0x7F800000#32
  let main_v15 : FVec F S1x2048x16 .f32 := broadcastInDim S1x2048x16 ![] bcast_S_S1x2048x16 main_cst_4
  let main_v16 : IVec S1x2048x16 1 := cmpf .olt main_v14 main_v15
  fn_part1 (F := F) main_arg4 main_arg5 main_v13 main_v16
-- ==== Kernel.lean ====
abbrev S4x2048x2048 : Shape := ⟨3, ![4, 2048, 2048]⟩
abbrev S3072x2048 : Shape := ⟨2, ![3072, 2048]⟩
abbrev S1x3x16x2048 : Shape := ⟨4, ![1, 3, 16, 2048]⟩
abbrev S1x2048x16 : Shape := ⟨3, ![1, 2048, 16]⟩
abbrev S1x512x16 : Shape := ⟨3, ![1, 512, 16]⟩
abbrev S8192x2048 : Shape := ⟨2, ![8192, 2048]⟩
abbrev S3x16x2048 : Shape := ⟨3, ![3, 16, 2048]⟩
abbrev S48x2048 : Shape := ⟨2, ![48, 2048]⟩
abbrev S_ : Shape := ⟨0, ![]⟩
abbrev S3072x48 : Shape := ⟨2, ![3072, 48]⟩
abbrev S2048x16 : Shape := ⟨2, ![2048, 16]⟩
abbrev S1 : Shape := ⟨1, ![1]⟩
abbrev S2 : Shape := ⟨1, ![2]⟩
abbrev S512x16 : Shape := ⟨2, ![512, 16]⟩
abbrev S384x2048 : Shape := ⟨2, ![384, 2048]⟩
abbrev S384x48 : Shape := ⟨2, ![384, 48]⟩
abbrev S8192x3072 : Shape := ⟨2, ![8192, 3072]⟩
abbrev S1024x2048 : Shape := ⟨2, ![1024, 2048]⟩
abbrev S1024x3072 : Shape := ⟨2, ![1024, 3072]⟩
abbrev S4x2048x3072 : Shape := ⟨3, ![4, 2048, 3072]⟩

abbrev nBuf : Space → Nat
  | .hbm => 35
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S3072x2048, .f32⟩
  | .hbm, ⟨2, _⟩ => ⟨S1x3x16x2048, .f32⟩
  | .hbm, ⟨3, _⟩ => ⟨S1x2048x16, .f32⟩
  | .hbm, ⟨4, _⟩ => ⟨S1x512x16, .f32⟩
  | .hbm, ⟨5, _⟩ => ⟨S1x512x16, .f32⟩
  | .hbm, ⟨6, _⟩ => ⟨S8192x2048, .f32⟩
  | .hbm, ⟨7, _⟩ => ⟨S3x16x2048, .f32⟩
  | .hbm, ⟨8, _⟩ => ⟨S48x2048, .f32⟩
  | .hbm, ⟨9, _⟩ => ⟨S_, .f32⟩
  | .hbm, ⟨10, _⟩ => ⟨S3072x48, .f32⟩
  | .hbm, ⟨11, _⟩ => ⟨S2048x16, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S3072x48, .f32⟩
  | .hbm, ⟨18, _⟩ => ⟨S512x16, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S3072x48, .f32⟩
  | .hbm, ⟨25, _⟩ => ⟨S512x16, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S3072x48, .f32⟩
  | .hbm, ⟨32, _⟩ => ⟨S3072x2048, .bf16⟩
  | .hbm, ⟨33, _⟩ => ⟨S8192x3072, .f32⟩
  | .hbm, ⟨34, _⟩ => ⟨S4x2048x3072, .f32⟩
  | .local _ .vmem, ⟨0, _⟩ => ⟨S384x2048, .f32⟩
  | .local _ .vmem, ⟨1, _⟩ => ⟨S384x2048, .f32⟩
  | .local _ .vmem, ⟨2, _⟩ => ⟨S48x2048, .f32⟩
  | .local _ .vmem, ⟨3, _⟩ => ⟨S384x48, .f32⟩
  | .local _ .vmem, ⟨4, _⟩ => ⟨S384x48, .f32⟩
  | .local _ .vmem, ⟨5, _⟩ => ⟨S384x2048, .bf16⟩
  | .local _ .vmem, ⟨6, _⟩ => ⟨S384x2048, .bf16⟩
  | .local _ .vmem, ⟨7, _⟩ => ⟨S1024x2048, .f32⟩
  | .local _ .vmem, ⟨8, _⟩ => ⟨S1024x2048, .f32⟩
  | .local _ .vmem, ⟨9, _⟩ => ⟨S3072x2048, .bf16⟩
  | .local _ .vmem, ⟨10, _⟩ => ⟨S1024x3072, .f32⟩
  | .local _ .vmem, ⟨11, _⟩ => ⟨S1024x3072, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3072x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S4x2048x2048_S8192x2048 : S4x2048x2048.ShapeCasts S8192x2048
  shapeCasts_S1x3x16x2048_S3x16x2048 : S1x3x16x2048.ShapeCasts S3x16x2048
  shapeCasts_S3x16x2048_S48x2048 : S3x16x2048.ShapeCasts S48x2048
  bcast_S_S3072x48 : S_.BroadcastsInDim S3072x48 (![] : Fin 0 → Fin S3072x48.rank)
  shapeCasts_S1x2048x16_S2048x16 : S1x2048x16.ShapeCasts S2048x16
  bcast_S_S1 : S_.BroadcastsInDim S1 (![] : Fin 0 → Fin S1.rank)
  concatenates_S1_S1_S2_d0 : Shape.Concatenates [S1, S1] S2 0
  shapeCasts_S1x512x16_S512x16 : S1x512x16.ShapeCasts S512x16
  inb_S384x48_S384x48_0_0 : ∀ a, (![0, 0] : Fin 2 → Nat) a + S384x48.size a ≤ S384x48.size a
  h_S384x48 : 0 < S384x48.numel
  shapeCasts_S384x48_S384x48 : S384x48.ShapeCasts S384x48
  inb_S48x2048_S48x2048_0_0 : ∀ a, (![0, 0] : Fin 2 → Nat) a + S48x2048.size a ≤ S48x2048.size a
  h_S48x2048 : 0 < S48x2048.numel
  shapeCasts_S48x2048_S48x2048 : S48x2048.ShapeCasts S48x2048
  inb_S384x2048_S384x2048_0_0 : ∀ a, (![0, 0] : Fin 2 → Nat) a + S384x2048.size a ≤ S384x2048.size a
  h_S384x2048 : 0 < S384x2048.numel
  bitsLt_bf16_f32 : FTy.bits .bf16 < FTy.bits .f32
  packedbf16_S384x2048_S384x2048_0_0 : (Rect.unit (s := S384x2048) ![0, 0] S384x2048.size inb_S384x2048_S384x2048_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S3072x2048_S3072x2048_0_0 : ∀ a, (![0, 0] : Fin 2 → Nat) a + S3072x2048.size a ≤ S3072x2048.size a
  h_S3072x2048 : 0 < S3072x2048.numel
  shapeCasts_S3072x2048_S3072x2048 : S3072x2048.ShapeCasts S3072x2048
  inb_S1024x3072_S1024x3072_0_0 : ∀ a, (![0, 0] : Fin 2 → Nat) a + S1024x3072.size a ≤ S1024x3072.size a
  h_S1024x3072 : 0 < S1024x3072.numel
  shapeCasts_S8192x3072_S4x2048x3072 : S8192x3072.ShapeCasts S4x2048x3072
  scatter_S3072x48_S2_S2048x16_01_n_01_0_wf : ScatterDims.WF S3072x48 S2 S2048x16 [0, 1] [] [0, 1] 0
  scatter_S3072x48_S2_S512x16_01_n_01_0_wf : ScatterDims.WF S3072x48 S2 S512x16 [0, 1] [] [0, 1] 0
  dot_S384x48_S48x2048_S384x2048_1_0_0_1_n_n_wf : DotDims.WF S384x48 S48x2048 S384x2048 [1] [0] [0] [1] [] []
  dot_S1024x2048_S3072x2048_S1024x3072_1_1_0_0_n_n_wf : DotDims.WF S1024x2048 S3072x2048 S1024x3072 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S384x2048.size a ≤ S3072x2048.size a
  hwx0_0 : ∀ i : grid0.Coords, EltTy.bits .f32 = 32 ∨ (Rect.block (s := S3072x2048) S384x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x2048.size a ≤ S48x2048.size a
  hwx0_1 : ∀ i : grid0.Coords, EltTy.bits .f32 = 32 ∨ (Rect.block (s := S48x2048) S48x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S384x48.size a ≤ S3072x48.size a
  hwx0_2 : ∀ i : grid0.Coords, EltTy.bits .f32 = 32 ∨ (Rect.block (s := S3072x48) S384x48.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S384x2048.size a ≤ S3072x2048.size a
  hwx0_3 : ∀ i : grid0.Coords, EltTy.bits .bf16 = 32 ∨ (Rect.block (s := S3072x2048) S384x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .f32 = 32 ∨ (Rect.block (s := S8192x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3072x2048.size a ≤ S3072x2048.size a
  hwx1_1 : ∀ i : grid1.Coords, EltTy.bits .bf16 = 32 ∨ (Rect.block (s := S3072x2048) S3072x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x3072.size a ≤ S8192x3072.size a
  hwx1_2 : ∀ i : grid1.Coords, EltTy.bits .f32 = 32 ∨ (Rect.block (s := S8192x3072) S1024x3072.size (cc1_transform_2 i) (hinb1_2 i)).WholeWords (EltTy.packing .f32)

variable [Facts₀]

def scatter_S3072x48_S2_S2048x16_01_n_01_0 : ScatterDims S3072x48 S2 S2048x16 where
  updateWindowDims := [0, 1]
  insertedWindowDims := []
  scatterDimsToOperandDims := [0, 1]
  indexVectorDim := 0
  wf := scatter_S3072x48_S2_S2048x16_01_n_01_0_wf
def scatter_S3072x48_S2_S512x16_01_n_01_0 : ScatterDims S3072x48 S2 S512x16 where
  updateWindowDims := [0, 1]
  insertedWindowDims := []
  scatterDimsToOperandDims := [0, 1]
  indexVectorDim := 0
  wf := scatter_S3072x48_S2_S512x16_01_n_01_0_wf
def dot_S384x48_S48x2048_S384x2048_1_0_0_1_n_n : DotDims S384x48 S48x2048 S384x2048 where
  lhsContracting := [1]
  rhsContracting := [0]
  lhsNonContracting := [0]
  rhsNonContracting := [1]
  lhsBatch := []
  rhsBatch := []
  wf := dot_S384x48_S48x2048_S384x2048_1_0_0_1_n_n_wf
def dot_S1024x2048_S3072x2048_S1024x3072_1_1_0_0_n_n : DotDims S1024x2048 S3072x2048 S1024x3072 where
  lhsContracting := [1]
  rhsContracting := [1]
  lhsNonContracting := [0]
  rhsNonContracting := [0]
  lhsBatch := []
  rhsBatch := []
  wf := dot_S1024x2048_S3072x2048_S1024x3072_1_1_0_0_n_n_wf

abbrev win0_0 : Pipeline.Window sig grid0 :=
  Pipeline.Window.ofSpec (Memref.whole main_arg1) S384x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S48x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S384x48.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S384x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S3072x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1024x3072.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S3072x2048 : Shape := ⟨2, ![3072, 2048]⟩
abbrev S1x3x16x2048 : Shape := ⟨4, ![1, 3, 16, 2048]⟩
abbrev S1x2048x16 : Shape := ⟨3, ![1, 2048, 16]⟩
abbrev S1x512x16 : Shape := ⟨3, ![1, 512, 16]⟩
abbrev S8192x2048 : Shape := ⟨2, ![8192, 2048]⟩
abbrev S2048x3072 : Shape := ⟨2, ![2048, 3072]⟩
abbrev S8192x3072 : Shape := ⟨2, ![8192, 3072]⟩
abbrev S1x1x16x2048 : Shape := ⟨4, ![1, 1, 16, 2048]⟩
abbrev S16x2048 : Shape := ⟨2, ![16, 2048]⟩
abbrev S2048x16 : Shape := ⟨2, ![2048, 16]⟩
abbrev S8192x16 : Shape := ⟨2, ![8192, 16]⟩
abbrev S_ : Shape := ⟨0, ![]⟩
abbrev S512x16 : Shape := ⟨2, ![512, 16]⟩
abbrev S16x512 : Shape := ⟨2, ![16, 512]⟩
abbrev S8192x512 : Shape := ⟨2, ![8192, 512]⟩
abbrev S4x2048x3072 : Shape := ⟨3, ![4, 2048, 3072]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S3072x2048, .f32⟩
  | .hbm, ⟨2, _⟩ => ⟨S1x3x16x2048, .f32⟩
  | .hbm, ⟨3, _⟩ => ⟨S1x2048x16, .f32⟩
  | .hbm, ⟨4, _⟩ => ⟨S1x512x16, .f32⟩
  | .hbm, ⟨5, _⟩ => ⟨S1x512x16, .f32⟩
  | .hbm, ⟨6, _⟩ => ⟨S8192x2048, .f32⟩
  | .hbm, ⟨7, _⟩ => ⟨S2048x3072, .f32⟩
  | .hbm, ⟨8, _⟩ => ⟨S8192x3072, .f32⟩
  | .hbm, ⟨9, _⟩ => ⟨S1x1x16x2048, .f32⟩
  | .hbm, ⟨10, _⟩ => ⟨S16x2048, .f32⟩
  | .hbm, ⟨11, _⟩ => ⟨S2048x16, .f32⟩
  | .hbm, ⟨12, _⟩ => ⟨S8192x16, .f32⟩
  | .hbm, ⟨13, _⟩ => ⟨S1x1x16x2048, .f32⟩
  | .hbm, ⟨14, _⟩ => ⟨S16x2048, .f32⟩
  | .hbm, ⟨15, _⟩ => ⟨S2048x16, .f32⟩
  | .hbm, ⟨16, _⟩ => ⟨S8192x16, .f32⟩
  | .hbm, ⟨17, _⟩ => ⟨S1x1x16x2048, .f32⟩
  | .hbm, ⟨18, _⟩ => ⟨S16x2048, .f32⟩
  | .hbm, ⟨19, _⟩ => ⟨S2048x16, .f32⟩
  | .hbm, ⟨20, _⟩ => ⟨S8192x16, .f32⟩
  | .hbm, ⟨21, _⟩ => ⟨S2048x16, .f32⟩
  | .hbm, ⟨22, _⟩ => ⟨S16x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S512x16, .f32⟩
  | .hbm, ⟨28, _⟩ => ⟨S16x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S512x16, .f32⟩
  | .hbm, ⟨34, _⟩ => ⟨S16x512, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S8192x3072, .f32⟩
  | .hbm, ⟨40, _⟩ => ⟨S8192x3072, .f32⟩
  | .hbm, ⟨41, _⟩ => ⟨S4x2048x3072, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  shapeCasts_S4x2048x2048_S8192x2048 : S4x2048x2048.ShapeCasts S8192x2048
  transposes_S3072x2048_S2048x3072_1_0 : S3072x2048.Transposes [1, 0] S2048x3072
  slices_S1x3x16x2048_S1x1x16x2048_0_0_0_0 : S1x3x16x2048.Slices ![0, 0, 0, 0] S1x1x16x2048
  shapeCasts_S1x1x16x2048_S16x2048 : S1x1x16x2048.ShapeCasts S16x2048
  transposes_S16x2048_S2048x16_1_0 : S16x2048.Transposes [1, 0] S2048x16
  slices_S1x3x16x2048_S1x1x16x2048_0_1_0_0 : S1x3x16x2048.Slices ![0, 1, 0, 0] S1x1x16x2048
  slices_S1x3x16x2048_S1x1x16x2048_0_2_0_0 : S1x3x16x2048.Slices ![0, 2, 0, 0] S1x1x16x2048
  shapeCasts_S1x2048x16_S2048x16 : S1x2048x16.ShapeCasts S2048x16
  transposes_S2048x16_S16x2048_1_0 : S2048x16.Transposes [1, 0] S16x2048
  bcast_S_S8192x2048 : S_.BroadcastsInDim S8192x2048 (![] : Fin 0 → Fin S8192x2048.rank)
  shapeCasts_S1x512x16_S512x16 : S1x512x16.ShapeCasts S512x16
  transposes_S512x16_S16x512_1_0 : S512x16.Transposes [1, 0] S16x512
  bcast_S_S8192x512 : S_.BroadcastsInDim S8192x512 (![] : Fin 0 → Fin S8192x512.rank)
  concatenates_S8192x2048_S8192x512_S8192x512_S8192x3072_d1 : Shape.Concatenates [S8192x2048, S8192x512, S8192x512] S8192x3072 1
  shapeCasts_S8192x3072_S4x2048x3072 : S8192x3072.ShapeCasts S4x2048x3072
  dot_S8192x2048_S2048x3072_S8192x3072_1_0_0_1_n_n_wf : DotDims.WF S8192x2048 S2048x3072 S8192x3072 [1] [0] [0] [1] [] []
  dot_S8192x2048_S2048x16_S8192x16_1_0_0_1_n_n_wf : DotDims.WF S8192x2048 S2048x16 S8192x16 [1] [0] [0] [1] [] []
  dot_S8192x16_S16x2048_S8192x2048_1_0_0_1_n_n_wf : DotDims.WF S8192x16 S16x2048 S8192x2048 [1] [0] [0] [1] [] []
  dot_S8192x16_S16x512_S8192x512_1_0_0_1_n_n_wf : DotDims.WF S8192x16 S16x512 S8192x512 [1] [0] [0] [1] [] []

variable [Facts₀]

def dot_S8192x2048_S2048x3072_S8192x3072_1_0_0_1_n_n : DotDims S8192x2048 S2048x3072 S8192x3072 where
  lhsContracting := [1]
  rhsContracting := [0]
  lhsNonContracting := [0]
  rhsNonContracting := [1]
  lhsBatch := []
  rhsBatch := []
  wf := dot_S8192x2048_S2048x3072_S8192x3072_1_0_0_1_n_n_wf
def dot_S8192x2048_S2048x16_S8192x16_1_0_0_1_n_n : DotDims S8192x2048 S2048x16 S8192x16 where
  lhsContracting := [1]
  rhsContracting := [0]
  lhsNonContracting := [0]
  rhsNonContracting := [1]
  lhsBatch := []
  rhsBatch := []
  wf := dot_S8192x2048_S2048x16_S8192x16_1_0_0_1_n_n_wf
def dot_S8192x16_S16x2048_S8192x2048_1_0_0_1_n_n : DotDims S8192x16 S16x2048 S8192x2048 where
  lhsContracting := [1]
  rhsContracting := [0]
  lhsNonContracting := [0]
  rhsNonContracting := [1]
  lhsBatch := []
  rhsBatch := []
  wf := dot_S8192x16_S16x2048_S8192x2048_1_0_0_1_n_n_wf
def dot_S8192x16_S16x512_S8192x512_1_0_0_1_n_n : DotDims S8192x16 S16x512 S8192x512 where
  lhsContracting := [1]
  rhsContracting := [0]
  lhsNonContracting := [0]
  rhsNonContracting := [1]
  lhsBatch := []
  rhsBatch := []
  wf := dot_S8192x16_S16x512_S8192x512_1_0_0_1_n_n_wf

class Facts : Prop extends Facts₀ where

variable [Facts]
-- ==== Proof.KerRun.lean ====
/-
  The idealized kernel's run with its result named.

  The program is a stretch of host operations, two pipelined regions and one closing host operation. Every weakly fair
  execution terminates, nothing faults, the six argument arrays end as launched, and the result buffer ends holding
  what the closing host operation makes of the second region's output array — the last boundary's contents `W4`, a
  fold through the program from the launch memory. The final thread state holds every unscoped buffer at that last
  boundary's contents; reading it gives the result buffer beside the six arguments.
-/
import proofs.«137313_g11295763988854_cont_week2b_339_11_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_main : θ_run defs (onTc (τ := τ) (main (F := F))) ⟨m, fun _ => 0, ρ⟩ (fun r => ∀ c : Dev nD,
      r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.KerRun

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.Spec.lean ====
/-
  What the two programs compute, written once over the argument arrays.

  The inputs are an activation array x[4, 2048, 2048], a fused projection weight w[3072, 2048] (rows 0..2047 the
  query rows, 2048..2559 the key rows, 2560..3071 the value rows), three low-rank factors a[0, t, r, h] (t = 0, 1, 2
  for query, key, value; r < 16) and the three matching factors bq[0, o, r], bk[0, o, r], bv[0, o, r].
  Output column o belongs to target `tgt o` and reads row `brow o` of that target's second factor.

  * the reference computes x·wᵀ and adds, per target, ((x·aₜᵀ)·bₜᵀ)·2   (`refOut`);
  * the kernel first folds the update into the weight, w + (B·A)·2 with B the block-diagonal arrangement of the three
    second factors against the stacked first factors (`bbd`, `weff`), and multiplies once (`kerOut`).
-/
import Idealize.ShloMosaic.Lib.ValueIdx
import Idealize.ShloMosaic.PureOps.Ideal

noncomputable section

namespace Cert.Spec

open Idealize.ShloMosaic Idealize.ShloMosaic.ValueIdx

/-- The scaling factor both programs spell as the same word (the float 2.0). -/
def two : EReal := Ideal.ofBits .f32 0x40000000#32

/-- The target an output column belongs to: query, key or value. -/
def tgt (o : Fin 3072) : Fin 3 := if o.val < 2048 then 0 else if o.val < 2560 then 1 else 2

/-- Row `o` of the second low-rank factor of `o`'s own target, at rank coordinate `r`. -/
def brow (bq : (⟨3, ![1, 2048, 16]⟩ : Shape).Idx → EReal) (bk bv : (⟨3, ![1, 512, 16]⟩ : Shape).Idx → EReal)
    (o : Fin 3072) (r : Fin 16) : EReal :=
  if h : o.val < 2048 then bq (ix3 0 ⟨o.val, h⟩ r)
  else if h2 : o.val < 2560 then bk (ix3 0 ⟨o.val - 2048, by omega⟩ r)
  else bv (ix3 0 ⟨o.val - 2560, by have := o.isLt; omega⟩ r)

/-- The reference: the base projection plus the scaled two-step low-rank update of the column's target. -/
def refOut (x : (⟨3, ![4, 2048, 2048]⟩ : Shape).Idx → EReal) (w : (⟨2, ![3072, 2048]⟩ : Shape).Idx → EReal)
    (a : (⟨4, ![1, 3, 16, 2048]⟩ : Shape).Idx → EReal)
    (bq : (⟨3, ![1, 2048, 16]⟩ : Shape).Idx → EReal) (bk bv : (⟨3, ![1, 512, 16]⟩ : Shape).Idx → EReal)
    (b : Fin 4) (s : Fin 2048) (o : Fin 3072) : EReal :=
  (∑ h : Fin 2048, x (ix3 b s h) * w (ix2 o h))
    + (∑ r : Fin 16, (∑ h : Fin 2048, x (ix3 b s h) * a (ix4 0 (tgt o) r h)) * brow bq bk bv o r) * two

/-- The block-diagonal arrangement of the second factors: entry (o, c) with c = 16·t + r is `brow o r` when
    t is `o`'s target and zero otherwise. -/
def bbd (bq : (⟨3, ![1, 2048, 16]⟩ : Shape).Idx → EReal) (bk bv : (⟨3, ![1, 512, 16]⟩ : Shape).Idx → EReal)
    (o : Fin 3072) (c : Fin 48) : EReal :=
  if c.val / 16 = (tgt o).val then brow bq bk bv o ⟨c.val % 16, Nat.mod_lt _ (by norm_num)⟩ else 0

/-- The stacked first factors: row c = 16·t + r is a[0, t, r, ·]. -/
def a48 (a : (⟨4, ![1, 3, 16, 2048]⟩ : Shape).Idx → EReal) (c : Fin 48) (h : Fin 2048) : EReal :=
  a (ix4 0 ⟨c.val / 16, by have := c.isLt; omega⟩ ⟨c.val % 16, Nat.mod_lt _ (by norm_num)⟩ h)

/-- The folded weight: w + (B·A)·2. -/
def weff (w : (⟨2, ![3072, 2048]⟩ : Shape).Idx → EReal) (a : (⟨4, ![1, 3, 16, 2048]⟩ : Shape).Idx → EReal)
    (bq : (⟨3, ![1, 2048, 16]⟩ : Shape).Idx → EReal) (bk bv : (⟨3, ![1, 512, 16]⟩ : Shape).Idx → EReal)
    (o : Fin 3072) (h : Fin 2048) : EReal :=
  w (ix2 o h) + (∑ c : Fin 48, bbd bq bk bv o c * a48 a c h) * two

/-- The kernel: one product of the activations with the folded weight. -/
def kerOut (x : (⟨3, ![4, 2048, 2048]⟩ : Shape).Idx → EReal) (w : (⟨2, ![3072, 2048]⟩ : Shape).Idx → EReal)
    (a : (⟨4, ![1, 3, 16, 2048]⟩ : Shape).Idx → EReal)
    (bq : (⟨3, ![1, 2048, 16]⟩ : Shape).Idx → EReal) (bk bv : (⟨3, ![1, 512, 16]⟩ : Shape).Idx → EReal)
    (b : Fin 4) (s : Fin 2048) (o : Fin 3072) : EReal :=
  ∑ h : Fin 2048, x (ix3 b s h) * weff w a bq bk bv o h

end Cert.Spec

end
-- ==== Proof.HostReads.lean ====
/-
  The host code's layout operations, read at an entry.

  The zero matrix and the start vectors the three window sets use; the stacked first factor (two reshapes of
  a[1, 3, 16, 2048] into [48, 2048]: row c = 16·t + r is a[0, t, r, ·]); the second factors with their leading unit
  axis dropped; the activations flattened to rows 2048·b + s; and the result reshaped back.
-/
import proofs.«137313_g11295763988854_cont_week2b_339_11_alg».proof.Proof.Gen.KernelIdeal
import proofs.«137313_g11295763988854_cont_week2b_339_11_alg».proof.Proof.LibLayout
import proofs.«137313_g11295763988854_cont_week2b_339_11_alg».proof.Proof.Spec
import Idealize.ShloMosaic.Lib.Pipeline.Value
import Idealize.ShloMosaic.Lib.ValueIdx
import Idealize.ShloMosaic.PureOps.Ideal.Laws

noncomputable section

namespace Cert.KernelIdeal.HostReads

open Cert.KernelIdeal Cert.KernelIdeal.Gen Idealize.ShloMosaic Idealize.ShloMosaic.ValueIdx

/-- The zero matrix the window sets start from. -/
def Z : S3072x48.Idx → EReal :=
  broadcastInDim S3072x48 ![] bcast_S_S3072x48 (constant (F := Ideal) S_ .f32 0x00000000#32)

/-- Every entry of it is zero. -/
theorem Z_apply (i : S3072x48.Idx) : Z i = 0 := by
  unfold Z
  rw [broadcastInDim_apply _ bcast_S_S3072x48 _ i ix0 (fun a => a.elim0)]
  exact Ideal.ofBits_zero_f32

/-- The index vector (r0, c0) of a window set. -/
def startVec (r0 c0 : BitVec 32) : IVec S2 32 :=
  concatenate S2 0 [⟨S1, broadcastInDim S1 ![] bcast_S_S1 (constantI S_ 32 r0)⟩,
    ⟨S1, broadcastInDim S1 ![] bcast_S_S1 (constantI S_ 32 c0)⟩] concatenates_S1_S1_S2_d0

theorem startVec_0 (r0 c0 : BitVec 32) : startVec r0 c0 (ix1 0) = r0 := by
  unfold startVec
  refine (concatenate_apply_piece (0 : Fin S2.rank) _ _ (ix1 0) 0 (by show 0 < 2; omega) S1
    (broadcastInDim S1 ![] bcast_S_S1 (constantI S_ 32 r0)) rfl rfl 0 rfl (ix1 0) ?_ ?_).trans ?_
  · intro b hb
    match b with
    | ⟨0, _⟩ => exact absurd (Fin.ext rfl) hb
  · rfl
  · rw [broadcastInDim_apply _ bcast_S_S1 _ (ix1 0) ix0 (fun a => a.elim0)]
    rfl

theorem startVec_1 (r0 c0 : BitVec 32) : startVec r0 c0 (ix1 1) = c0 := by
  unfold startVec
  refine (concatenate_apply_piece (0 : Fin S2.rank) _ _ (ix1 1) 1 (by show 1 < 2; omega) S1
    (broadcastInDim S1 ![] bcast_S_S1 (constantI S_ 32 c0)) rfl rfl 1 rfl (ix1 0) ?_ ?_).trans ?_
  · intro b hb
    match b with
    | ⟨0, _⟩ => exact absurd (Fin.ext rfl) hb
  · rfl
  · rw [broadcastInDim_apply _ bcast_S_S1 _ (ix1 0) ix0 (fun a => a.elim0)]
    rfl

/-- Row c = 16·t + r of the stacked first factors is a[0, t, r, ·]. -/
theorem a48_read (a : S1x3x16x2048.Idx → EReal) (k : Fin 48) (h : Fin 2048) :
    shapeCast S48x2048 (shapeCast S3x16x2048 a shapeCasts_S1x3x16x2048_S3x16x2048) shapeCasts_S3x16x2048_S48x2048 (ix2 k h)
      = Cert.Spec.a48 a k h := by
  have hk := k.isLt
  have hh := h.isLt
  rw [shapeCast_apply _ shapeCasts_S3x16x2048_S48x2048 (ix2 k h)
    (ix3 ⟨k.val / 16, by omega⟩ ⟨k.val % 16, Nat.mod_lt _ (by norm_num)⟩ h) (by
      rw [Shape.rowMajor_val_three, Shape.rowMajor_val_two]
      show (k.val / 16 * 16 + k.val % 16) * 2048 + h.val = k.val * 2048 + h.val
      omega)]
  rw [shapeCast_apply _ shapeCasts_S1x3x16x2048_S3x16x2048 _
    (ix4 0 ⟨k.val / 16, by omega⟩ ⟨k.val % 16, Nat.mod_lt _ (by norm_num)⟩ h) (by
      rw [Shape.rowMajor_val_four, Shape.rowMajor_val_three]
      show ((0 * 3 + k.val / 16) * 16 + k.val % 16) * 2048 + h.val = (k.val / 16 * 16 + k.val % 16) * 2048 + h.val
      omega)]
  rfl

/-- The query factor with its unit axis dropped. -/
theorem bq_read (bq : S1x2048x16.Idx → EReal) (p : Fin 2048) (q : Fin 16) :
    shapeCast S2048x16 bq shapeCasts_S1x2048x16_S2048x16 (ix2 p q) = bq (ix3 0 p q) :=
  Cert.LibLayout.shapeCast_abc_mc_apply bq shapeCasts_S1x2048x16_S2048x16 p 0 p q (by show p.val = 0 * 2048 + p.val; omega)

/-- The key or value factor with its unit axis dropped. -/
theorem bkv_read (bkv : S1x512x16.Idx → EReal) (p : Fin 512) (q : Fin 16) :
    shapeCast S512x16 bkv shapeCasts_S1x512x16_S512x16 (ix2 p q) = bkv (ix3 0 p q) :=
  Cert.LibLayout.shapeCast_abc_mc_apply bkv shapeCasts_S1x512x16_S512x16 p 0 p q (by show p.val = 0 * 512 + p.val; omega)

/-- The row of the flattened arrays that holds token (b, s). -/
def row (b : Fin 4) (s : Fin 2048) : Fin 8192 :=
  ⟨b.val * 2048 + s.val, by have := b.isLt; have := s.isLt; omega⟩

/-- The flattened activations at row 2048·b + s. -/
theorem x_read (x : S4x2048x2048.Idx → EReal) (b : Fin 4) (s : Fin 2048) (h : Fin 2048) :
    shapeCast S8192x2048 x shapeCasts_S4x2048x2048_S8192x2048 (ix2 (row b s) h) = x (ix3 b s h) :=
  Cert.LibLayout.shapeCast_abc_mc_apply x shapeCasts_S4x2048x2048_S8192x2048 (row b s) b s h rfl

/-- The result at (b, s, o) is row 2048·b + s of the flat output. -/
theorem out_read (y : S8192x3072.Idx → EReal) (b : Fin 4) (s : Fin 2048) (o : Fin 3072) :
    shapeCast S4x2048x3072 y shapeCasts_S8192x3072_S4x2048x3072 (ix3 b s o) = y (ix2 (row b s) o) :=
  Cert.LibLayout.shapeCast_mc_abc_apply y shapeCasts_S8192x3072_S4x2048x3072 (row b s) b s o rfl

end Cert.KernelIdeal.HostReads

end
-- ==== Proof.HostGlue.lean ====
/-
  What the regions find, and what the closing host operation returns, as terms of the launch memory.

  Before the first region the host code flattens the activations, stacks the three first factors into [48, 2048] and
  builds the block-diagonal second factor by three window sets into zeros; the first region reads the weight, the
  stacked factor and the block-diagonal factor and writes the folded weight; the second region reads the flattened
  activations and the folded weight; the closing host operation reshapes the second region's output.
-/
import proofs.«137313_g11295763988854_cont_week2b_339_11_alg».proof.Proof.Gen.KernelIdeal.Frame
import proofs.«137313_g11295763988854_cont_week2b_339_11_alg».proof.Proof.HostReads
import Idealize.ShloMosaic.Lib.StableHlo.Run
import Idealize.ShloMosaic.Lib.Pipeline.Value
import Idealize.ShloMosaic.Lib.ValueIdx

set_option maxRecDepth 16384

noncomputable section

namespace Cert.KernelIdeal.HostGlue

open Cert.KernelIdeal Cert.KernelIdeal.Gen Idealize.ShloMosaic Idealize.ShloMosaic.TcCoe Idealize.ShloMosaic.ValueIdx
open Idealize.SL.Sem Idealize.ShloMosaic.StableHlo Cert.KernelIdeal.HostReads

variable (m : (ℓ : Loc nD τ sig) → Buf (Elt Ideal) ℓ) (ρ : Dev nD → PrngReg)

/-- The first region finds the weight as launched. -/
theorem arg1_eq (c : Dev nD) :
    (V1 m ρ c main_arg1 : S3072x2048.Idx → EReal) = m ((c.tc : Thread nD τ).loc main_arg1) := by
  show StableHlo.after hostOps0 (W0 m ρ c) (Proc.devRef .tc main_arg1) = _
  after_results

/-- The first region finds the stacked first factors: two reshapes of the launched array. -/
theorem v2_eq (c : Dev nD) :
    (V1 m ρ c main_v2 : S48x2048.Idx → EReal)
      = shapeCast S48x2048 (shapeCast S3x16x2048 (m ((c.tc : Thread nD τ).loc main_arg2)) shapeCasts_S1x3x16x2048_S3x16x2048) shapeCasts_S3x16x2048_S48x2048 := by
  show StableHlo.after hostOps0 (W0 m ρ c) (Proc.devRef .tc main_v2) = _
  after_results
  rfl

set_option maxHeartbeats 1000000 in
/-- The first region finds the block-diagonal second factor: three window sets into zeros. -/
theorem v18_eq (c : Dev nD) :
    (V1 m ρ c main_v18 : S3072x48.Idx → EReal)
      = Host.scatter scatter_S3072x48_S2_S512x16_01_n_01_0 (fun _ b => b)
          (Host.scatter scatter_S3072x48_S2_S512x16_01_n_01_0 (fun _ b => b)
            (Host.scatter scatter_S3072x48_S2_S2048x16_01_n_01_0 (fun _ b => b) Z (startVec 0#32 0#32)
              (shapeCast S2048x16 (m ((c.tc : Thread nD τ).loc main_arg3)) shapeCasts_S1x2048x16_S2048x16))
            (startVec 2048#32 16#32)
            (shapeCast S512x16 (m ((c.tc : Thread nD τ).loc main_arg4)) shapeCasts_S1x512x16_S512x16))
          (startVec 2560#32 32#32)
          (shapeCast S512x16 (m ((c.tc : Thread nD τ).loc main_arg5)) shapeCasts_S1x512x16_S512x16) := by
  show StableHlo.after hostOps0 (W0 m ρ c) (Proc.devRef .tc main_v18) = _
  after_results_simp
  rfl

/-- The second region finds the flattened activations. -/
theorem v0_eq (c : Dev nD) :
    (V2 m ρ c main_v0 : S8192x2048.Idx → EReal)
      = shapeCast S8192x2048 (m ((c.tc : Thread nD τ).loc main_arg0)) shapeCasts_S4x2048x2048_S8192x2048 := by
  refine (W2_of_ne m ρ c main_v0 (by decide)).trans ?_
  show StableHlo.after hostOps0 (W0 m ρ c) (Proc.devRef .tc main_v0) = _
  after_results
  rfl

/-- The second region finds the first region's output array. -/
theorem v19_eq (c : Dev nD) : V2 m ρ c main_v19 = (dat0 (V1 m ρ) c).arrAt 3 cfg0.N := W2_arr m ρ c 3

/-- The result buffer: the second region's output array, reshaped. -/
theorem v21_eq (c : Dev nD) :
    (W4 m ρ c (Proc.devRef .tc main_v21) : S4x2048x3072.Idx → EReal)
      = shapeCast S4x2048x3072 ((dat1 (V2 m ρ) c).arrAt 2 cfg1.N) shapeCasts_S8192x3072_S4x2048x3072 := by
  show StableHlo.after hostOps2 (W3 m ρ c) (Proc.devRef .tc main_v21) = _
  after_results
  rw [← W3_arr m ρ c 2]
  rfl

end Cert.KernelIdeal.HostGlue

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.FoldValue.lean ====
/-
  The first region's output array: the folded weight.

  At each of its eight grid points the body loads a 384-row block of the weight, the whole stacked first factor
  [48, 2048] and a 384-row block of the block-diagonal second factor [3072, 48], and stores
  (weight block) + (second-factor block · stacked first factor) · 2, the change of float format being the identity on
  the extended reals. Point t's block is rows 384·t … 384·t + 383, so the eight blocks tile the [3072, 2048] output and
  the array after the region is, entry by entry, w(o, h) + (∑ c, B(o, c) · A(c, h)) · 2 of the arrays the region found.
  Stated for any contents `V` of the buffers at the region's entry.
-/
import proofs.«137313_g11295763988854_cont_week2b_339_11_alg».proof.Proof.Gen.KernelIdeal.Frame
import proofs.«137313_g11295763988854_cont_week2b_339_11_alg».proof.Proof.LibPlainDot
import proofs.«137313_g11295763988854_cont_week2b_339_11_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.FoldValue

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The body's stored value at an entry: the weight entry plus twice the row-by-column product. -/
theorem pay_apply (v0 : Vec Ideal S384x48 .f32) (v2 : Vec Ideal S48x2048 .f32) (v5 : Vec Ideal S384x2048 .f32)
    (p : Fin 384) (q : Fin 2048) :
    k0_pay1 (F := Ideal) v0 v2 v5 (ix2 p q)
      = v5 (ix2 p q) + (∑ c : Fin 48, v0 (ix2 p c) * v2 (ix2 c q)) * Cert.Spec.two := by
  unfold k0_pay1
  simp only [truncf_apply, addf_apply, mulf_apply, broadcast_apply]
  rw [shapeCast_self, shapeCast_self]
  have hm := Cert.PlainDot.matmul_zero_plain_apply (M := 384) (K := 48) (N := 2048) (φ₁ := .f32) (φ₂ := .f32) none v0 v2 p q
  exact congrArg₂ (· + ·) rfl (congrArg₂ (· * ·) hm rfl)

theorem hz : (![0, 0] : Fin 2 → Nat) = fun _ => 0 := funext fun a => by fin_cases a <;> rfl

/-- The folded weight as one function of the three arrays the region reads. -/
def Weff (w : S3072x2048.Idx → EReal) (a : S48x2048.Idx → EReal) (bb : S3072x48.Idx → EReal) : S3072x2048.Idx → EReal :=
  fun i => w (ix2 (i 0) (i 1)) + (∑ c : Fin 48, bb (ix2 (i 0) c) * a (ix2 c (i 1))) * Cert.Spec.two

/-- The printed index maps over the grid: the weight, the second factor and the output move by one block of rows per
    point; the stacked first factor stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Row p of point t's block is row 384·t + p of the array. -/
def row (t : Fin cfg0.N) (p : Fin 384) : Fin 3072 :=
  ⟨t.val * 384 + p.val, by have h8 : t.val < 8 := lt_of_lt_of_eq t.isLt N_0; have := p.isLt; omega⟩

theorem blk0_read (c : Dev nD) (t : Fin cfg0.N) (p : Fin 384) (q : Fin 2048) :
    iblk0 V c 0 t (ix2 p q) = V c main_arg1 (ix2 (row t p) q) := by
  obtain ⟨e0, e1, -⟩ := idx_facts t
  show V c main_arg1 (((cfg0.win 0).blk t).view.emb (ix2 p q)) = V c main_arg1 (ix2 (row t p) q)
  refine congrArg _ (funext fun a => Fin.ext ?_)
  match a with
  | ⟨0, _⟩ => show win0_0.index t (0 : Fin 2) * 384 + 1 * p.val = t.val * 384 + p.val; omega
  | ⟨1, _⟩ => show win0_0.index t (1 : Fin 2) * 2048 + 1 * q.val = q.val; omega

theorem blk1_read (c : Dev nD) (t : Fin cfg0.N) (k : Fin 48) (q : Fin 2048) :
    iblk0 V c 1 t (ix2 k q) = V c main_v2 (ix2 k q) := by
  obtain ⟨-, -, e0, e1, -⟩ := idx_facts t
  show V c main_v2 (((cfg0.win 1).blk t).view.emb (ix2 k q)) = V c main_v2 (ix2 k q)
  refine congrArg _ (funext fun a => Fin.ext ?_)
  match a with
  | ⟨0, _⟩ => show win0_1.index t (0 : Fin 2) * 48 + 1 * k.val = k.val; omega
  | ⟨1, _⟩ => show win0_1.index t (1 : Fin 2) * 2048 + 1 * q.val = q.val; omega

theorem blk2_read (c : Dev nD) (t : Fin cfg0.N) (p : Fin 384) (k : Fin 48) :
    iblk0 V c 2 t (ix2 p k) = V c main_v18 (ix2 (row t p) k) := by
  obtain ⟨-, -, -, -, e0, e1, -⟩ := idx_facts t
  show V c main_v18 (((cfg0.win 2).blk t).view.emb (ix2 p k)) = V c main_v18 (ix2 (row t p) k)
  refine congrArg _ (funext fun a => Fin.ext ?_)
  match a with
  | ⟨0, _⟩ => show win0_2.index t (0 : Fin 2) * 384 + 1 * p.val = t.val * 384 + p.val; omega
  | ⟨1, _⟩ => show win0_2.index t (1 : Fin 2) * 48 + 1 * k.val = k.val; omega

theorem blk3_emb (t : Fin cfg0.N) (p : Fin 384) (q : Fin 2048) :
    ((cfg0.win 3).blk t).view.emb (ix2 p q) = ix2 (row t p) q := by
  obtain ⟨-, -, -, -, -, -, e0, e1⟩ := idx_facts t
  refine funext fun a => Fin.ext ?_
  match a with
  | ⟨0, _⟩ => show win0_3.index t (0 : Fin 2) * 384 + 1 * p.val = t.val * 384 + p.val; omega
  | ⟨1, _⟩ => show win0_3.index t (1 : Fin 2) * 2048 + 1 * q.val = q.val; omega

/-- What point t writes back is block t of the folded weight of the arrays the region found. -/
theorem flushed_eq (c : Dev nD) (t : Fin cfg0.N) :
    (dat0 V c).flushed 3 t
      = ((cfg0.win 3).blk t).view.read (Elt Ideal) (Weff (V c main_arg1) (V c main_v2) (V c main_v18)) := by
  show (cfg0.win 3).cut (grid0.coords t) ((dat0 V c).after 3 t) = _
  rw [after0_3]
  unfold out0_3
  rw [View.canon_unit_zero hz]
  simp only [View.ld_unit_zero (S := S384x48) hz, View.ld_unit_zero (S := S48x2048) hz, View.ld_unit_zero (S := S384x2048) hz]
  funext j
  obtain ⟨p, q, rfl⟩ : ∃ (p : Fin 384) (q : Fin 2048), j = ix2 p q := ⟨j 0, j 1, eq_ix2 j⟩
  show k0_pay1 (F := Ideal) (iblk0 V c 2 t) (iblk0 V c 1 t) (iblk0 V c 0 t) (ix2 p q)
    = Weff (V c main_arg1) (V c main_v2) (V c main_v18) (((cfg0.win 3).blk t).view.emb (ix2 p q))
  rw [blk3_emb t p q]
  refine (pay_apply (iblk0 V c 2 t) (iblk0 V c 1 t) (iblk0 V c 0 t) p q).trans ?_
  rw [blk0_read V c t p q]
  unfold Weff
  refine congrArg₂ (· + ·) rfl (congrArg₂ (· * ·) (Finset.sum_congr rfl fun k _ => ?_) rfl)
  rw [blk2_read V c t p k, blk1_read V c t k q]

/-- An index of the array is in point t's block iff each coordinate is in the block's range. -/
theorem mem_blk (t : Fin cfg0.N) (i : S3072x2048.Idx) :
    i ∈ ((cfg0.win 3).blk t).view.set ↔ ∀ a : Fin 2, win0_3.index t a * S384x2048.size a ≤ (i a).val ∧ (i a).val < win0_3.index t a * S384x2048.size a + S384x2048.size a := by
  show i ∈ ((View.whole main_v19).slice (win0_3.rect t)).set ↔ _
  rw [View.set_slice_whole, Rect.mem_set_unit]
  exact Iff.rfl

/-- Every index is in the block of the point its row falls in. -/
theorem cover (i : S3072x2048.Idx) :
    ∃ t : Fin cfg0.N, (cfg0.win 3).flush t = true ∧ i ∈ ((cfg0.win 3).blk t).view.set := by
  have hi0 : (i 0).val < 3072 := (i 0).isLt
  have hi1 : (i 1).val < 2048 := (i 1).isLt
  let t : Fin cfg0.N := ⟨(i 0).val / 384, lt_of_lt_of_eq (by omega : (i 0).val / 384 < 8) N_0.symm⟩
  obtain ⟨-, -, -, -, -, -, e0, e1⟩ := idx_facts t
  have ht : t.val = (i 0).val / 384 := rfl
  refine ⟨t, flush0_3 t, ?_⟩
  rw [mem_blk]
  intro a
  match a with
  | ⟨0, _⟩ => show win0_3.index t (0 : Fin 2) * 384 ≤ (i 0).val ∧ (i 0).val < win0_3.index t (0 : Fin 2) * 384 + 384; omega
  | ⟨1, _⟩ => show win0_3.index t (1 : Fin 2) * 2048 ≤ (i 1).val ∧ (i 1).val < win0_3.index t (1 : Fin 2) * 2048 + 2048; omega

/-- The output array after the region. -/
theorem final (c : Dev nD) :
    (dat0 V c).arrAt 3 cfg0.N = Weff (V c main_arg1) (V c main_v2) (V c main_v18) :=
  (dat0 V c).arrAt_eq_of_cover 3 (Weff (V c main_arg1) (V c main_v2) (V c main_v18))
    (fun t _ => flushed_eq V c t) cover

/-- The output array after the region, read at an entry. -/
theorem final_apply (c : Dev nD) (o : Fin 3072) (h : Fin 2048) :
    (dat0 V c).arrAt 3 cfg0.N (ix2 o h) = Weff (V c main_arg1) (V c main_v2) (V c main_v18) (ix2 o h) := by
  rw [final V c]

/-- The folded weight at an entry. -/
theorem Weff_apply (w : S3072x2048.Idx → EReal) (a : S48x2048.Idx → EReal) (bb : S3072x48.Idx → EReal)
    (o : Fin 3072) (h : Fin 2048) :
    Weff w a bb (ix2 o h) = w (ix2 o h) + (∑ k : Fin 48, bb (ix2 o k) * a (ix2 k h)) * Cert.Spec.two := rfl

end Cert.KernelIdeal.FoldValue

end
-- ==== Proof.LibRowsDot.lean ====
/-
  A product of a matrix with the transpose of another, A · Bᵀ ("bi,hi->bh": both operands contracted on their last
  axis), as a kernel's `tpu.matmul` into the zero accumulator, read at the extended reals at an index given by
  coordinates: entry (p, q) is the sum over k of A(p, k) · B(q, k). Stated for arbitrary extents and operand formats,
  over the library's dimension numbers `DotDims.transposedRhs M K N`.
-/
import Idealize.ShloMosaic.Lib.ValueIdx
import Idealize.ShloMosaic.PureOps.Ideal.Laws

namespace Cert.Lib.RowsDot

open Idealize.ShloMosaic Idealize.ShloMosaic.ValueIdx

variable {M K N : ℕ} {φ₁ φ₂ : FTy}

/-- The left operand's row is the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row is the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Entry (p, q) of A · Bᵀ accumulated into zero is the sum over k of A(p, k) · B(q, k). -/
theorem matmul_zero_apply (A : FVec Ideal ⟨2, ![M, K]⟩ φ₁) (B : FVec Ideal ⟨2, ![N, K]⟩ φ₂) (p : Fin M) (q : Fin N) :
    matmul (DotDims.transposedRhs M K N) none A B (constant ⟨2, ![M, N]⟩ .f32 0x00000000#32) (ix2 p q)
      = ∑ k : Fin K, A (ix2 p k) * B (ix2 q k) := by
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k := funext fun a => Fin.ext (by
    match a with
    | ⟨0, _⟩ => exact lhs_row _ _
    | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k := funext fun a => Fin.ext (by
    match a with
    | ⟨0, _⟩ => exact rhs_row _ _
    | ⟨1, _⟩ => exact ((DotDims.transposedRhs M K N).rhsIdx_val_of_single rfl _ _).trans hk)
  rw [el, er]

end Cert.Lib.RowsDot
-- ==== Proof.MatValue.lean ====
/-
  The second region's output array: the activations times the transposed folded weight.

  At each of its eight grid points the body loads a 1024-row block of the flattened activations [8192, 2048] and the
  whole folded weight [3072, 2048], both read in the narrow float format — the identity on the extended reals — and
  stores their product contracted over the last axis of both: entry (p, q) is ∑ h, X(p, h) · W(q, h). Point t's block
  is rows 1024·t … 1024·t + 1023, so the eight blocks tile the [8192, 3072] output. Stated for any contents `V` of the
  buffers at the region's entry.
-/
import proofs.«137313_g11295763988854_cont_week2b_339_11_alg».proof.Proof.Gen.KernelIdeal.Frame
import proofs.«137313_g11295763988854_cont_week2b_339_11_alg».proof.Proof.LibRowsDot
import Idealize.ShloMosaic.Lib.Pipeline.Value
import Idealize.ShloMosaic.Lib.ValueIdx
import Idealize.ShloMosaic.PureOps.Ideal.Laws

set_option maxRecDepth 16384

noncomputable section

namespace Cert.KernelIdeal.MatValue

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The body's stored value at an entry: row p of the activations against row q of the weight. -/
theorem pay_apply (v0 : Vec Ideal S1024x2048 .f32) (v3 : Vec Ideal S3072x2048 .bf16) (p : Fin 1024) (q : Fin 3072) :
    k1_pay1 (F := Ideal) v0 v3 (ix2 p q) = ∑ h : Fin 2048, v0 (ix2 p h) * v3 (ix2 q h) := by
  unfold k1_pay1
  rw [shapeCast_self, shapeCast_self]
  exact Cert.Lib.RowsDot.matmul_zero_apply (M := 1024) (K := 2048) (N := 3072) (φ₁ := .bf16) (φ₂ := .bf16)
    (truncf .bf16 v0 bitsLt_bf16_f32) v3 p q

theorem hz : (![0, 0] : Fin 2 → Nat) = fun _ => 0 := funext fun a => by fin_cases a <;> rfl

/-- The product as one function of the two arrays the region reads. -/
def RowProd (x : S8192x2048.Idx → EReal) (w : S3072x2048.Idx → EReal) : S8192x3072.Idx → EReal :=
  fun i => ∑ h : Fin 2048, x (ix2 (i 0) h) * w (ix2 (i 1) h)

/-- The printed index maps over the grid: the activations and the output move by one block of rows per point; the
    weight stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- Row p of point t's block is row 1024·t + p of the array. -/
def row (t : Fin cfg1.N) (p : Fin 1024) : Fin 8192 :=
  ⟨t.val * 1024 + p.val, by have h8 : t.val < 8 := lt_of_lt_of_eq t.isLt N_1; have := p.isLt; omega⟩

theorem blk0_read (c : Dev nD) (t : Fin cfg1.N) (p : Fin 1024) (h : Fin 2048) :
    iblk1 V c 0 t (ix2 p h) = V c main_v0 (ix2 (row t p) h) := by
  obtain ⟨e0, e1, -⟩ := idx_facts t
  show V c main_v0 (((cfg1.win 0).blk t).view.emb (ix2 p h)) = V c main_v0 (ix2 (row t p) h)
  refine congrArg _ (funext fun a => Fin.ext ?_)
  match a with
  | ⟨0, _⟩ => show win1_0.index t (0 : Fin 2) * 1024 + 1 * p.val = t.val * 1024 + p.val; omega
  | ⟨1, _⟩ => show win1_0.index t (1 : Fin 2) * 2048 + 1 * h.val = h.val; omega

theorem blk1_read (c : Dev nD) (t : Fin cfg1.N) (q : Fin 3072) (h : Fin 2048) :
    iblk1 V c 1 t (ix2 q h) = V c main_v19 (ix2 q h) := by
  obtain ⟨-, -, e0, e1, -⟩ := idx_facts t
  show V c main_v19 (((cfg1.win 1).blk t).view.emb (ix2 q h)) = V c main_v19 (ix2 q h)
  refine congrArg _ (funext fun a => Fin.ext ?_)
  match a with
  | ⟨0, _⟩ => show win1_1.index t (0 : Fin 2) * 3072 + 1 * q.val = q.val; omega
  | ⟨1, _⟩ => show win1_1.index t (1 : Fin 2) * 2048 + 1 * h.val = h.val; omega

theorem blk2_emb (t : Fin cfg1.N) (p : Fin 1024) (q : Fin 3072) :
    ((cfg1.win 2).blk t).view.emb (ix2 p q) = ix2 (row t p) q := by
  obtain ⟨-, -, -, -, e0, e1⟩ := idx_facts t
  refine funext fun a => Fin.ext ?_
  match a with
  | ⟨0, _⟩ => show win1_2.index t (0 : Fin 2) * 1024 + 1 * p.val = t.val * 1024 + p.val; omega
  | ⟨1, _⟩ => show win1_2.index t (1 : Fin 2) * 3072 + 1 * q.val = q.val; omega

/-- What point t writes back is block t of the product of the arrays the region found. -/
theorem flushed_eq (c : Dev nD) (t : Fin cfg1.N) :
    (dat1 V c).flushed 2 t
      = ((cfg1.win 2).blk t).view.read (Elt Ideal) (RowProd (V c main_v0) (V c main_v19)) := by
  show (cfg1.win 2).cut (grid1.coords t) ((dat1 V c).after 2 t) = _
  rw [after1_2]
  unfold out1_2
  rw [View.canon_unit_zero hz]
  simp only [View.ld_unit_zero (S := S1024x2048) hz, View.ld_unit_zero (S := S3072x2048) hz]
  funext j
  obtain ⟨p, q, rfl⟩ : ∃ (p : Fin 1024) (q : Fin 3072), j = ix2 p q := ⟨j 0, j 1, eq_ix2 j⟩
  show k1_pay1 (F := Ideal) (iblk1 V c 0 t) (iblk1 V c 1 t) (ix2 p q)
    = RowProd (V c main_v0) (V c main_v19) (((cfg1.win 2).blk t).view.emb (ix2 p q))
  rw [blk2_emb t p q]
  refine (pay_apply (iblk1 V c 0 t) (iblk1 V c 1 t) p q).trans ?_
  unfold RowProd
  refine Finset.sum_congr rfl fun h _ => ?_
  rw [blk0_read V c t p h, blk1_read V c t q h]

/-- An index of the array is in point t's block iff each coordinate is in the block's range. -/
theorem mem_blk (t : Fin cfg1.N) (i : S8192x3072.Idx) :
    i ∈ ((cfg1.win 2).blk t).view.set ↔ ∀ a : Fin 2, win1_2.index t a * S1024x3072.size a ≤ (i a).val ∧ (i a).val < win1_2.index t a * S1024x3072.size a + S1024x3072.size a := by
  show i ∈ ((View.whole main_v20).slice (win1_2.rect t)).set ↔ _
  rw [View.set_slice_whole, Rect.mem_set_unit]
  exact Iff.rfl

/-- Every index is in the block of the point its row falls in. -/
theorem cover (i : S8192x3072.Idx) :
    ∃ t : Fin cfg1.N, (cfg1.win 2).flush t = true ∧ i ∈ ((cfg1.win 2).blk t).view.set := by
  have hi0 : (i 0).val < 8192 := (i 0).isLt
  have hi1 : (i 1).val < 3072 := (i 1).isLt
  let t : Fin cfg1.N := ⟨(i 0).val / 1024, lt_of_lt_of_eq (by omega : (i 0).val / 1024 < 8) N_1.symm⟩
  obtain ⟨-, -, -, -, e0, e1⟩ := idx_facts t
  have ht : t.val = (i 0).val / 1024 := rfl
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 3072 ≤ (i 1).val ∧ (i 1).val < win1_2.index t (1 : Fin 2) * 3072 + 3072; omega

/-- The output array after the region. -/
theorem final (c : Dev nD) :
    (dat1 V c).arrAt 2 cfg1.N = RowProd (V c main_v0) (V c main_v19) :=
  (dat1 V c).arrAt_eq_of_cover 2 (RowProd (V c main_v0) (V c main_v19))
    (fun t _ => flushed_eq V c t) cover

/-- The output array after the region, read at an entry. -/
theorem final_apply (c : Dev nD) (n : Fin 8192) (o : Fin 3072) :
    (dat1 V c).arrAt 2 cfg1.N (ix2 n o) = RowProd (V c main_v0) (V c main_v19) (ix2 n o) := by
  rw [final V c]

/-- The product at an entry. -/
theorem RowProd_apply (x : S8192x2048.Idx → EReal) (w : S3072x2048.Idx → EReal) (n : Fin 8192) (o : Fin 3072) :
    RowProd x w (ix2 n o) = ∑ h : Fin 2048, x (ix2 n h) * w (ix2 o h) := rfl

end Cert.KernelIdeal.MatValue

end
-- ==== Proof.LibScatterRead.lean ====
/-
  Reading a scatter that writes its updates (body: return the update) at one position.

  Such a scatter is the left fold, over the updates in row-major order, of point writes: update `j` overwrites the operand
  at its result position when that lies inside the operand and is dropped otherwise. Read at a position where exactly one
  update lands, the result is that update's value, whatever the operand held and whatever the other updates do. The
  fold lemmas are stated for any list of point writes; the scatter lemma for any operand, index and update shapes.
-/
import Idealize.ShloMosaic.Lib.ValueIdx

noncomputable section

namespace Cert.Lib.ScatterRead

open Idealize.ShloMosaic

/-- A left fold of point writes read at a position no step writes: if every step of the fold either
    leaves the array alone (g n = none) or overwrites it at one position g n = some i, and no step
    of the list writes at i0, the fold's result at i0 is the start array's value there. -/
theorem foldl_write_miss {ι κ α : Type} (g : κ → Option ι) (v : κ → α) [DecidableEq ι]
    (step : (ι → α) → κ → ι → α)
    (hs : ∀ r n i, g n = some i → step r n = fun i' => if i' = i then v n else r i')
    (hn : ∀ r n, g n = none → step r n = r) (i0 : ι) :
    ∀ (l : List κ), (∀ n ∈ l, g n ≠ some i0) → ∀ r, l.foldl step r i0 = r i0 := by
  intro l
  induction l with
  | nil => intro _ r; rfl
  | cons a l ih =>
    intro hl r
    rw [List.foldl_cons, ih (fun n hn' => hl n (List.mem_cons_of_mem a hn'))]
    cases hga : g a with
    | none => rw [hn r a hga]
    | some i =>
      rw [hs r a i hga]
      have hne : i0 ≠ i := fun h => hl a List.mem_cons_self (by rw [hga, h])
      exact if_neg hne

/-- A left fold of point writes read at a position exactly one step writes: if the steps are as
    above, the list has no repetition, step n0 of the list writes at i0 and no other step of the
    list does, the fold's result at i0 is the value step n0 writes. -/
theorem foldl_write_hit {ι κ α : Type} (g : κ → Option ι) (v : κ → α) [DecidableEq ι]
    (step : (ι → α) → κ → ι → α)
    (hs : ∀ r n i, g n = some i → step r n = fun i' => if i' = i then v n else r i')
    (hn : ∀ r n, g n = none → step r n = r) (n0 : κ) (i0 : ι) (h0 : g n0 = some i0) :
    ∀ (l : List κ), l.Nodup → n0 ∈ l → (∀ n ∈ l, g n = some i0 → n = n0) →
      ∀ r, l.foldl step r i0 = v n0 := by
  intro l
  induction l with
  | nil => intro _ hm; exact absurd hm List.not_mem_nil
  | cons a l ih =>
    intro hnd hm huniq r
    rw [List.foldl_cons]
    have hnd' := List.nodup_cons.1 hnd
    by_cases han : n0 = a
    · subst han
      rw [foldl_write_miss g v step hs hn i0 l
        (fun n hnl hgn => hnd'.1 (huniq n (List.mem_cons_of_mem _ hnl) hgn ▸ hnl)),
        hs r n0 i0 h0]
      exact if_pos rfl
    · have hml : n0 ∈ l := by
        rcases List.mem_cons.1 hm with h | h
        · exact absurd h han
        · exact h
      exact ih hnd'.2 hml (fun n hnl => huniq n (List.mem_cons_of_mem _ hnl)) _

/-- A scatter whose body returns the update, read at an operand position that exactly one update
    lands at: the result there is that update's value, whatever the operand held. (The scatter is the
    left fold, over the updates in row-major order, of the point writes at their result positions;
    an update whose result position falls outside the operand is dropped.) -/
theorem scatter_set_read {α : Type} {s si u : Shape} {w : Nat} (d : ScatterDims s si u)
    (x : s.Idx → α) (idx : IVec si w) (upd : u.Idx → α) (j0 : u.Idx) (i0 : s.Idx)
    (h0 : d.resultIdx? j0 idx = some i0) (huniq : ∀ j, d.resultIdx? j idx = some i0 → j = j0) :
    Host.scatter d (fun _ b => b) x idx upd i0 = upd j0 := by
  unfold Host.scatter
  refine Eq.trans (foldl_write_hit
    (g := fun n : Fin u.numel => d.resultIdx? (u.rowMajor.symm n) idx)
    (v := fun n : Fin u.numel => upd (u.rowMajor.symm n)) _ ?_ ?_ (u.rowMajor j0) i0 ?_
    (List.finRange u.numel) (List.nodup_finRange _) (List.mem_finRange _) ?_ x) ?_
  · intro r n i h
    simp only [h]
  · intro r n h
    simp only [h]
  · simp only [Equiv.symm_apply_apply]; exact h0
  · intro n _ hn
    rw [← huniq _ hn, Equiv.apply_symm_apply]
  · simp only [Equiv.symm_apply_apply]

end Cert.Lib.ScatterRead

end
-- ==== Proof.LibScatterBlock.lean ====
/-
  A scatter that sets one rectangular window of a matrix, read at any position.

  Writing an [R, C] update as ONE window into an [A, B] matrix at the start (r0, c0) — the dimension numbers of
  `x.at[r0:r0+R, c0:c0+C].set(u)`: both update axes are window axes, no inserted axis, a single index vector (r0, c0) —
  sends update entry (p, q) to position (r0 + p, c0 + q). Read back, the result holds u(o − r0, c − c0) at every position
  (o, c) inside the window and the operand's own entry everywhere else.
-/
import proofs.«137313_g11295763988854_cont_week2b_339_11_alg».proof.Proof.LibScatterRead
import Idealize.ShloMosaic.Lib.ValueIdx

noncomputable section

namespace Cert.Lib.ScatterBlock

open Idealize.ShloMosaic Idealize.ShloMosaic.ValueIdx Cert.Lib.ScatterRead

/-- A scatter whose body returns the update, read at a position no update lands at, is the operand there. -/
theorem scatter_set_miss {α : Type} {s si u : Shape} {w : Nat} (d : ScatterDims s si u)
    (x : s.Idx → α) (idx : IVec si w) (upd : u.Idx → α) (i0 : s.Idx)
    (hmiss : ∀ j, d.resultIdx? j idx ≠ some i0) :
    Host.scatter d (fun _ b => b) x idx upd i0 = x i0 := by
  unfold Host.scatter
  refine foldl_write_miss
    (g := fun n : Fin u.numel => d.resultIdx? (u.rowMajor.symm n) idx)
    (v := fun n : Fin u.numel => upd (u.rowMajor.symm n)) _ ?_ ?_ i0
    (List.finRange u.numel) (fun n _ => hmiss _) x
  · intro r n i h
    simp only [h]
  · intro r n h
    simp only [h]

variable {A B R C : ℕ} {w : Nat}

/-- The dimension numbers of setting one window: both update axes are window axes, one index vector. -/
abbrev dims (wf : ScatterDims.WF (⟨2, ![A, B]⟩ : Shape) ⟨1, ![2]⟩ ⟨2, ![R, C]⟩ [0, 1] [] [0, 1] 0) :
    ScatterDims (⟨2, ![A, B]⟩ : Shape) ⟨1, ![2]⟩ ⟨2, ![R, C]⟩ :=
  { updateWindowDims := [0, 1], insertedWindowDims := [], scatterDimsToOperandDims := [0, 1], indexVectorDim := 0, wf := wf }

variable (wf : ScatterDims.WF (⟨2, ![A, B]⟩ : Shape) ⟨1, ![2]⟩ ⟨2, ![R, C]⟩ [0, 1] [] [0, 1] 0)

theorem start0 (j : (⟨2, ![R, C]⟩ : Shape).Idx) (idx : IVec (⟨1, ![2]⟩ : Shape) w) :
    (dims wf).start j idx 0 = (idx (ix1 0)).toInt := by
  unfold ScatterDims.start
  rw [dif_pos (by show (0 : Fin 2) ∈ ([0, 1] : List (Fin 2)); decide)]
  refine congrArg (fun k => (idx k).toInt) (funext fun b => ?_)
  match b with
  | ⟨0, _⟩ => rfl

theorem start1 (j : (⟨2, ![R, C]⟩ : Shape).Idx) (idx : IVec (⟨1, ![2]⟩ : Shape) w) :
    (dims wf).start j idx 1 = (idx (ix1 1)).toInt := by
  unfold ScatterDims.start
  rw [dif_pos (by show (1 : Fin 2) ∈ ([0, 1] : List (Fin 2)); decide)]
  refine congrArg (fun k => (idx k).toInt) (funext fun b => ?_)
  match b with
  | ⟨0, _⟩ => rfl

theorem window0 (j : (⟨2, ![R, C]⟩ : Shape).Idx) : (dims wf).window j 0 = (j 0).val := by
  unfold ScatterDims.window
  rw [dif_pos (by show (0 : Fin 2) ∈ (List.finRange 2).filter (· ∉ ([] : List (Fin 2))); decide)]
  rfl

theorem window1 (j : (⟨2, ![R, C]⟩ : Shape).Idx) : (dims wf).window j 1 = (j 1).val := by
  unfold ScatterDims.window
  rw [dif_pos (by show (1 : Fin 2) ∈ (List.finRange 2).filter (· ∉ ([] : List (Fin 2))); decide)]
  rfl

/-- Update entry j lands at (r0 + j₀, c0 + j₁) when the index vector holds (r0, c0) and that position is inside. -/
theorem resultIdx_eq (j : (⟨2, ![R, C]⟩ : Shape).Idx) (idx : IVec (⟨1, ![2]⟩ : Shape) w) (r0 c0 : ℕ)
    (h0 : (idx (ix1 0)).toInt = (r0 : Int)) (h1 : (idx (ix1 1)).toInt = (c0 : Int))
    (hr : r0 + (j 0).val < A) (hc : c0 + (j 1).val < B) :
    (dims wf).resultIdx? j idx = some (ix2 ⟨r0 + (j 0).val, hr⟩ ⟨c0 + (j 1).val, hc⟩) := by
  have s0 : (dims wf).start j idx 0 + ((dims wf).window j 0 : Int) = ((r0 + (j 0).val : ℕ) : Int) := by
    rw [start0, window0, h0]; push_cast; rfl
  have s1 : (dims wf).start j idx 1 + ((dims wf).window j 1 : Int) = ((c0 + (j 1).val : ℕ) : Int) := by
    rw [start1, window1, h1]; push_cast; rfl
  unfold ScatterDims.resultIdx?
  rw [dif_pos (fun a => by
    match a with
    | ⟨0, _⟩ =>
      show 0 ≤ (dims wf).start j idx 0 + ((dims wf).window j 0 : Int) ∧ (dims wf).start j idx 0 + ((dims wf).window j 0 : Int) < ((A : ℕ) : Int)
      rw [s0]; omega
    | ⟨1, _⟩ =>
      show 0 ≤ (dims wf).start j idx 1 + ((dims wf).window j 1 : Int) ∧ (dims wf).start j idx 1 + ((dims wf).window j 1 : Int) < ((B : ℕ) : Int)
      rw [s1]; omega)]
  refine congrArg some (funext fun a => Fin.ext ?_)
  match a with
  | ⟨0, _⟩ =>
    show ((dims wf).start j idx 0 + ((dims wf).window j 0 : Int)).toNat = r0 + (j 0).val
    rw [s0]; exact Int.toNat_natCast _
  | ⟨1, _⟩ =>
    show ((dims wf).start j idx 1 + ((dims wf).window j 1 : Int)).toNat = c0 + (j 1).val
    rw [s1]; exact Int.toNat_natCast _

variable {α : Type}

/-- Inside the window the result holds the update's entry. -/
theorem read_hit (x : (⟨2, ![A, B]⟩ : Shape).Idx → α) (idx : IVec (⟨1, ![2]⟩ : Shape) w)
    (upd : (⟨2, ![R, C]⟩ : Shape).Idx → α) (r0 c0 : ℕ)
    (h0 : (idx (ix1 0)).toInt = (r0 : Int)) (h1 : (idx (ix1 1)).toInt = (c0 : Int))
    (hR : r0 + R ≤ A) (hC : c0 + C ≤ B) (o : Fin A) (c : Fin B) (p : Fin R) (q : Fin C)
    (ho : o.val = r0 + p.val) (hc : c.val = c0 + q.val) :
    Host.scatter (dims wf) (fun _ b => b) x idx upd (ix2 o c) = upd (ix2 p q) := by
  have hp := p.isLt
  have hq := q.isLt
  have e : (ix2 o c : (⟨2, ![A, B]⟩ : Shape).Idx)
      = ix2 ⟨r0 + ((ix2 p q : (⟨2, ![R, C]⟩ : Shape).Idx) 0).val, by show r0 + p.val < A; omega⟩
          ⟨c0 + ((ix2 p q : (⟨2, ![R, C]⟩ : Shape).Idx) 1).val, by show c0 + q.val < B; omega⟩ := by
    refine funext fun a => Fin.ext ?_
    match a with
    | ⟨0, _⟩ => exact ho
    | ⟨1, _⟩ => exact hc
  refine scatter_set_read (dims wf) x idx upd (ix2 p q) _ (e ▸ resultIdx_eq wf (ix2 p q) idx r0 c0 h0 h1 _ _) ?_
  intro j hj
  have hj0 : (j 0).val < R := (j 0).isLt
  have hj1 : (j 1).val < C := (j 1).isLt
  rw [resultIdx_eq wf j idx r0 c0 h0 h1 (by omega) (by omega)] at hj
  have hi := Option.some.inj hj
  have e0 : r0 + (j 0).val = o.val := congrArg (fun i : (⟨2, ![A, B]⟩ : Shape).Idx => (i 0).val) hi
  have e1 : c0 + (j 1).val = c.val := congrArg (fun i : (⟨2, ![A, B]⟩ : Shape).Idx => (i 1).val) hi
  rw [eq_ix2 j]
  refine funext fun a => Fin.ext ?_
  match a with
  | ⟨0, _⟩ => show (j 0).val = p.val; omega
  | ⟨1, _⟩ => show (j 1).val = q.val; omega

/-- Outside the window the result holds the operand's entry. -/
theorem read_miss (x : (⟨2, ![A, B]⟩ : Shape).Idx → α) (idx : IVec (⟨1, ![2]⟩ : Shape) w)
    (upd : (⟨2, ![R, C]⟩ : Shape).Idx → α) (r0 c0 : ℕ)
    (h0 : (idx (ix1 0)).toInt = (r0 : Int)) (h1 : (idx (ix1 1)).toInt = (c0 : Int))
    (hR : r0 + R ≤ A) (hC : c0 + C ≤ B) (o : Fin A) (c : Fin B)
    (hout : ¬ (r0 ≤ o.val ∧ o.val < r0 + R ∧ c0 ≤ c.val ∧ c.val < c0 + C)) :
    Host.scatter (dims wf) (fun _ b => b) x idx upd (ix2 o c) = x (ix2 o c) := by
  refine scatter_set_miss (dims wf) x idx upd _ fun j hj => hout ?_
  have hj0 : (j 0).val < R := (j 0).isLt
  have hj1 : (j 1).val < C := (j 1).isLt
  rw [resultIdx_eq wf j idx r0 c0 h0 h1 (by omega) (by omega)] at hj
  have hi := Option.some.inj hj
  have e0 : r0 + (j 0).val = o.val := congrArg (fun i : (⟨2, ![A, B]⟩ : Shape).Idx => (i 0).val) hi
  have e1 : c0 + (j 1).val = c.val := congrArg (fun i : (⟨2, ![A, B]⟩ : Shape).Idx => (i 1).val) hi
  omega

end Cert.Lib.ScatterBlock

end
-- ==== Proof.BbdRead.lean ====
/-
  The block-diagonal second factor, read at an entry.

  The kernel's host code builds a [3072, 48] matrix from zeros by three window sets: the query factor [2048, 16] at
  (0, 0), the key factor [512, 16] at (2048, 16) and the value factor [512, 16] at (2560, 32). The three windows are
  disjoint, so at a position (o, c) the matrix holds the entry of the one window that contains it, and zero when none
  does. Column c = 16·t + r lies in the window of row o exactly when t is o's target, which is the specification's `bbd`.
-/
import proofs.«137313_g11295763988854_cont_week2b_339_11_alg».proof.Proof.LibScatterBlock
import proofs.«137313_g11295763988854_cont_week2b_339_11_alg».proof.Proof.Spec

noncomputable section

namespace Cert.BbdRead

open Idealize.ShloMosaic Idealize.ShloMosaic.ValueIdx Cert.Lib.ScatterBlock

variable (wfQ : ScatterDims.WF (⟨2, ![3072, 48]⟩ : Shape) ⟨1, ![2]⟩ ⟨2, ![2048, 16]⟩ [0, 1] [] [0, 1] 0)
  (wfK : ScatterDims.WF (⟨2, ![3072, 48]⟩ : Shape) ⟨1, ![2]⟩ ⟨2, ![512, 16]⟩ [0, 1] [] [0, 1] 0)

/-- Three disjoint window sets into zeros, read at (o, c). -/
theorem bbd_read (bq : (⟨3, ![1, 2048, 16]⟩ : Shape).Idx → EReal) (bk bv : (⟨3, ![1, 512, 16]⟩ : Shape).Idx → EReal)
    (Z : (⟨2, ![3072, 48]⟩ : Shape).Idx → EReal) (hZ : ∀ i, Z i = 0)
    (I0 I1 I2 : IVec (⟨1, ![2]⟩ : Shape) 32)
    (h00 : (I0 (ix1 0)).toInt = ((0 : ℕ) : Int)) (h01 : (I0 (ix1 1)).toInt = ((0 : ℕ) : Int))
    (h10 : (I1 (ix1 0)).toInt = ((2048 : ℕ) : Int)) (h11 : (I1 (ix1 1)).toInt = ((16 : ℕ) : Int))
    (h20 : (I2 (ix1 0)).toInt = ((2560 : ℕ) : Int)) (h21 : (I2 (ix1 1)).toInt = ((32 : ℕ) : Int))
    (Uq : (⟨2, ![2048, 16]⟩ : Shape).Idx → EReal) (hUq : ∀ p q, Uq (ix2 p q) = bq (ix3 0 p q))
    (Uk : (⟨2, ![512, 16]⟩ : Shape).Idx → EReal) (hUk : ∀ p q, Uk (ix2 p q) = bk (ix3 0 p q))
    (Uv : (⟨2, ![512, 16]⟩ : Shape).Idx → EReal) (hUv : ∀ p q, Uv (ix2 p q) = bv (ix3 0 p q))
    (o : Fin 3072) (c : Fin 48) :
    Host.scatter (dims wfK) (fun _ b => b)
        (Host.scatter (dims wfK) (fun _ b => b) (Host.scatter (dims wfQ) (fun _ b => b) Z I0 Uq) I1 Uk) I2 Uv (ix2 o c)
      = Cert.Spec.bbd bq bk bv o c := by
  have ho := o.isLt
  have hc := c.isLt
  unfold Cert.Spec.bbd Cert.Spec.tgt Cert.Spec.brow
  by_cases w2 : 2560 ≤ o.val ∧ o.val < 2560 + 512 ∧ 32 ≤ c.val ∧ c.val < 32 + 16
  · -- the value window
    rw [read_hit wfK _ I2 Uv 2560 32 h20 h21 (by norm_num) (by norm_num) o c ⟨o.val - 2560, by omega⟩ ⟨c.val - 32, by omega⟩
      (by show o.val = 2560 + (o.val - 2560); omega) (by show c.val = 32 + (c.val - 32); omega), hUv]
    have h1 : ¬ o.val < 2048 := by omega
    have h2 : ¬ o.val < 2560 := by omega
    rw [if_neg h1, if_neg h2, if_pos (by show c.val / 16 = 2; omega), dif_neg h1, dif_neg h2]
    refine congrArg bv (congrArg (ix3 0 _) (Fin.ext ?_))
    show c.val - 32 = c.val % 16; omega
  · rw [read_miss wfK _ I2 Uv 2560 32 h20 h21 (by norm_num) (by norm_num) o c w2]
    by_cases w1 : 2048 ≤ o.val ∧ o.val < 2048 + 512 ∧ 16 ≤ c.val ∧ c.val < 16 + 16
    · -- the key window
      rw [read_hit wfK _ I1 Uk 2048 16 h10 h11 (by norm_num) (by norm_num) o c ⟨o.val - 2048, by omega⟩ ⟨c.val - 16, by omega⟩
        (by show o.val = 2048 + (o.val - 2048); omega) (by show c.val = 16 + (c.val - 16); omega), hUk]
      have h1 : ¬ o.val < 2048 := by omega
      have h2 : o.val < 2560 := by omega
      rw [if_neg h1, if_pos h2, if_pos (by show c.val / 16 = 1; omega), dif_neg h1, dif_pos h2]
      refine congrArg bk (congrArg (ix3 0 _) (Fin.ext ?_))
      show c.val - 16 = c.val % 16; omega
    · rw [read_miss wfK _ I1 Uk 2048 16 h10 h11 (by norm_num) (by norm_num) o c w1]
      by_cases w0 : 0 ≤ o.val ∧ o.val < 0 + 2048 ∧ 0 ≤ c.val ∧ c.val < 0 + 16
      · -- the query window
        rw [read_hit wfQ Z I0 Uq 0 0 h00 h01 (by norm_num) (by norm_num) o c ⟨o.val, by omega⟩ ⟨c.val, by omega⟩
          (by show o.val = 0 + o.val; omega) (by show c.val = 0 + c.val; omega), hUq]
        have h1 : o.val < 2048 := by omega
        rw [if_pos h1, if_pos (by show c.val / 16 = 0; omega), dif_pos h1]
        refine congrArg bq (congrArg (ix3 0 _) (Fin.ext ?_))
        show c.val = c.val % 16; omega
      · -- outside the three windows
        rw [read_miss wfQ Z I0 Uq 0 0 h00 h01 (by norm_num) (by norm_num) o c w0, hZ]
        refine (if_neg ?_).symm
        split_ifs <;> (first | (show ¬ c.val / 16 = 0; omega) | (show ¬ c.val / 16 = 1; omega) | (show ¬ c.val / 16 = 2; omega))

end Cert.BbdRead

end
-- ==== Proof.KerValue.lean ====
/-
  The idealized kernel's result, entry by entry, is the specification's `kerOut`.

  The result at (b, s, o) is row 2048·b + s, column o of the second region's output: the sum over h of the flattened
  activations at (2048·b + s, h) — the activation x(b, s, h) — times the folded weight at (o, h). The folded weight is
  the first region's output: the weight entry plus twice the sum over the 48 stacked rows of the block-diagonal second
  factor at (o, c) times the stacked first factor at (c, h).
-/
import proofs.«137313_g11295763988854_cont_week2b_339_11_alg».proof.Proof.HostGlue
import proofs.«137313_g11295763988854_cont_week2b_339_11_alg».proof.Proof.FoldValue
import proofs.«137313_g11295763988854_cont_week2b_339_11_alg».proof.Proof.MatValue
import proofs.«137313_g11295763988854_cont_week2b_339_11_alg».proof.Proof.BbdRead
import proofs.«137313_g11295763988854_cont_week2b_339_11_alg».proof.Proof.Spec

set_option maxRecDepth 16384

noncomputable section

namespace Cert.KernelIdeal.KerValue

open Cert.KernelIdeal Cert.KernelIdeal.Gen Idealize.ShloMosaic Idealize.ShloMosaic.TcCoe Idealize.ShloMosaic.ValueIdx
open Idealize.SL.Sem Cert.KernelIdeal.HostReads Cert.KernelIdeal.HostGlue

variable (m : (ℓ : Loc nD τ sig) → Buf (Elt Ideal) ℓ) (ρ : Dev nD → PrngReg)

theorem start_0_0 : ((startVec 0#32 0#32) (ix1 0)).toInt = ((0 : ℕ) : Int) := by rw [startVec_0]; rfl
theorem start_0_1 : ((startVec 0#32 0#32) (ix1 1)).toInt = ((0 : ℕ) : Int) := by rw [startVec_1]; rfl
theorem start_1_0 : ((startVec 2048#32 16#32) (ix1 0)).toInt = ((2048 : ℕ) : Int) := by rw [startVec_0]; rfl
theorem start_1_1 : ((startVec 2048#32 16#32) (ix1 1)).toInt = ((16 : ℕ) : Int) := by rw [startVec_1]; rfl
theorem start_2_0 : ((startVec 2560#32 32#32) (ix1 0)).toInt = ((2560 : ℕ) : Int) := by rw [startVec_0]; rfl
theorem start_2_1 : ((startVec 2560#32 32#32) (ix1 1)).toInt = ((32 : ℕ) : Int) := by rw [startVec_1]; rfl

/-- The folded weight the second region finds, at an entry. -/
theorem weff_entry (c : Dev nD) (o : Fin 3072) (h : Fin 2048) :
    (V2 m ρ c main_v19 : S3072x2048.Idx → EReal) (ix2 o h)
      = Cert.Spec.weff (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) o h := by
  rw [v19_eq m ρ c, Cert.KernelIdeal.FoldValue.final_apply (V1 m ρ) c o h, Cert.KernelIdeal.FoldValue.Weff_apply,
    arg1_eq m ρ c, v2_eq m ρ c, v18_eq m ρ c]
  unfold Cert.Spec.weff
  refine congrArg₂ (· + ·) rfl (congrArg₂ (· * ·) (Finset.sum_congr rfl fun k _ => ?_) rfl)
  refine congrArg₂ (· * ·) ?_ (a48_read _ k h)
  exact Cert.BbdRead.bbd_read scatter_S3072x48_S2_S2048x16_01_n_01_0_wf scatter_S3072x48_S2_S512x16_01_n_01_0_wf
    (m ((c.tc : Thread nD τ).loc main_arg3)) (m ((c.tc : Thread nD τ).loc main_arg4)) (m ((c.tc : Thread nD τ).loc main_arg5))
    Z Z_apply (startVec 0#32 0#32) (startVec 2048#32 16#32) (startVec 2560#32 32#32)
    start_0_0 start_0_1 start_1_0 start_1_1 start_2_0 start_2_1
    _ (bq_read _) _ (bkv_read _) _ (bkv_read _) o k

/-- The result buffer at (b, s, o). -/
theorem result_apply (c : Dev nD) (b : Fin 4) (s : Fin 2048) (o : Fin 3072) :
    (W4 m ρ c (Proc.devRef .tc main_v21) : S4x2048x3072.Idx → EReal) (ix3 b s o)
      = Cert.Spec.kerOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) b s o := by
  rw [v21_eq m ρ c, out_read, Cert.KernelIdeal.MatValue.final_apply (V2 m ρ) c, Cert.KernelIdeal.MatValue.RowProd_apply]
  unfold Cert.Spec.kerOut
  refine Finset.sum_congr (M := EReal) rfl fun h _ => ?_
  rw [v0_eq m ρ c, x_read, weff_entry m ρ c o h]

end Cert.KernelIdeal.KerValue

end
-- ==== Proof.RefSide.lean ====
/-
  The reference side: the reference program's result, read one element at a time, is the specification's `refOut`.

  The reference flattens the activations to rows n = b·2048 + s, multiplies by the transposed weight, and adds the
  three scaled low-rank updates laid side by side along the columns (query columns 0..2047, key columns 2048..2559,
  value columns 2560..3071). Each stage is read at an index: the flattening and the transpositions move an index,
  a product of two matrices is a sum over the contracted coordinate, the join reads the piece whose span holds the
  column. Splitting the column by its span identifies the joined update with the update of the column's own target.
-/
import proofs.«137313_g11295763988854_cont_week2b_339_11_alg».proof.Proof.Gen.ReferenceIdeal.Read
import proofs.«137313_g11295763988854_cont_week2b_339_11_alg».proof.Proof.Spec

noncomputable section

namespace Cert.RefSide

open Cert.ReferenceIdeal Cert.ReferenceIdeal.Read Idealize.ShloMosaic Idealize.ShloMosaic.ValueIdx

/-- The row of the flattened activations that holds token (b, s). -/
def row (b : Fin 4) (s : Fin 2048) : Fin 8192 :=
  ⟨b.val * 2048 + s.val, by have := b.isLt; have := s.isLt; omega⟩

/-- The flattened activations at (row b s, h) are the activations at (b, s, h). -/
theorem xflat_apply (x0 : FVec Ideal S4x2048x2048 .f32) (b : Fin 4) (s : Fin 2048) (h : Fin 2048) :
    val_main_v0 (F := Ideal) x0 (ix2 (row b s) h) = x0 (ix3 b s h) := by
  rw [val_main_v0_apply]
  congr 1
  funext a
  apply Fin.ext
  have hb := b.isLt
  have hs := s.isLt
  have hh := h.isLt
  match a with
  | ⟨0, _⟩ => show ((b.val * 2048 + s.val) * 2048 + h.val) / 4194304 = b.val; omega
  | ⟨1, _⟩ => show ((b.val * 2048 + s.val) * 2048 + h.val) / 2048 % 2048 = s.val; omega
  | ⟨2, _⟩ => show ((b.val * 2048 + s.val) * 2048 + h.val) % 2048 = h.val; omega

/-- The transposed weight at (h, o) is the weight at (o, h). -/
theorem wT_apply (x1 : FVec Ideal S3072x2048 .f32) (h : Fin 2048) (o : Fin 3072) :
    val_main_v1 (F := Ideal) x1 (ix2 h o) = x1 (ix2 o h) := by
  rw [val_main_v1_apply]
  congr 1
  funext a
  apply Fin.ext
  match a with
  | ⟨0, _⟩ => rfl
  | ⟨1, _⟩ => rfl

/-- The base projection at (row b s, o). -/
theorem base_apply (x0 : FVec Ideal S4x2048x2048 .f32) (x1 : FVec Ideal S3072x2048 .f32)
    (b : Fin 4) (s : Fin 2048) (o : Fin 3072) :
    val_main_v2 (F := Ideal) x0 x1 (ix2 (row b s) o) = ∑ h : Fin 2048, x0 (ix3 b s h) * x1 (ix2 o h) := by
  rw [val_main_v2_apply]
  refine Finset.sum_congr rfl fun h _ => ?_
  have el : lidx_main_v2 (ix2 (row b s) o) h = ix2 (row b s) h := funext fun a => Fin.ext (by
    match a with
    | ⟨0, _⟩ => rfl
    | ⟨1, _⟩ => rfl)
  have er : ridx_main_v2 (ix2 (row b s) o) h = ix2 h o := funext fun a => Fin.ext (by
    match a with
    | ⟨0, _⟩ => rfl
    | ⟨1, _⟩ => rfl)
  rw [el, er, xflat_apply, wT_apply]

/-- The transposed first factor of target 0 at (h, r) is a[0, 0, r, h]. -/
theorem aT0_apply (x2 : FVec Ideal S1x3x16x2048 .f32) (h : Fin 2048) (r : Fin 16) :
    val_main_v5 (F := Ideal) x2 (ix2 h r) = x2 (ix4 0 0 r h) := by
  rw [val_main_v5_apply, val_main_v4_apply, val_main_v3_apply]
  congr 1
  funext a
  apply Fin.ext
  have hr := r.isLt
  have hh := h.isLt
  match a with
  | ⟨0, _⟩ => rfl
  | ⟨1, _⟩ => rfl
  | ⟨2, _⟩ => show (r.val * 2048 + h.val) / 2048 % 16 = r.val; omega
  | ⟨3, _⟩ => show (r.val * 2048 + h.val) % 2048 = h.val; omega

/-- The transposed first factor of target 1 at (h, r) is a[0, 1, r, h]. -/
theorem aT1_apply (x2 : FVec Ideal S1x3x16x2048 .f32) (h : Fin 2048) (r : Fin 16) :
    val_main_v9 (F := Ideal) x2 (ix2 h r) = x2 (ix4 0 1 r h) := by
  rw [val_main_v9_apply, val_main_v8_apply, val_main_v7_apply]
  congr 1
  funext a
  apply Fin.ext
  have hr := r.isLt
  have hh := h.isLt
  match a with
  | ⟨0, _⟩ => rfl
  | ⟨1, _⟩ => rfl
  | ⟨2, _⟩ => show (r.val * 2048 + h.val) / 2048 % 16 = r.val; omega
  | ⟨3, _⟩ => show (r.val * 2048 + h.val) % 2048 = h.val; omega

/-- The transposed first factor of target 2 at (h, r) is a[0, 2, r, h]. -/
theorem aT2_apply (x2 : FVec Ideal S1x3x16x2048 .f32) (h : Fin 2048) (r : Fin 16) :
    val_main_v13 (F := Ideal) x2 (ix2 h r) = x2 (ix4 0 2 r h) := by
  rw [val_main_v13_apply, val_main_v12_apply, val_main_v11_apply]
  congr 1
  funext a
  apply Fin.ext
  have hr := r.isLt
  have hh := h.isLt
  match a with
  | ⟨0, _⟩ => rfl
  | ⟨1, _⟩ => rfl
  | ⟨2, _⟩ => show (r.val * 2048 + h.val) / 2048 % 16 = r.val; omega
  | ⟨3, _⟩ => show (r.val * 2048 + h.val) % 2048 = h.val; omega

/-- The down-projection of target 0 at (row b s, r). -/
theorem down0_apply (x0 : FVec Ideal S4x2048x2048 .f32) (x2 : FVec Ideal S1x3x16x2048 .f32)
    (b : Fin 4) (s : Fin 2048) (r : Fin 16) :
    val_main_v6 (F := Ideal) x0 x2 (ix2 (row b s) r) = ∑ h : Fin 2048, x0 (ix3 b s h) * x2 (ix4 0 0 r h) := by
  rw [val_main_v6_apply]
  refine Finset.sum_congr rfl fun h _ => ?_
  have el : lidx_main_v6 (ix2 (row b s) r) h = ix2 (row b s) h := funext fun a => Fin.ext (by
    match a with
    | ⟨0, _⟩ => rfl
    | ⟨1, _⟩ => rfl)
  have er : ridx_main_v6 (ix2 (row b s) r) h = ix2 h r := funext fun a => Fin.ext (by
    match a with
    | ⟨0, _⟩ => rfl
    | ⟨1, _⟩ => rfl)
  rw [el, er, xflat_apply, aT0_apply]

/-- The down-projection of target 1 at (row b s, r). -/
theorem down1_apply (x0 : FVec Ideal S4x2048x2048 .f32) (x2 : FVec Ideal S1x3x16x2048 .f32)
    (b : Fin 4) (s : Fin 2048) (r : Fin 16) :
    val_main_v10 (F := Ideal) x0 x2 (ix2 (row b s) r) = ∑ h : Fin 2048, x0 (ix3 b s h) * x2 (ix4 0 1 r h) := by
  rw [val_main_v10_apply]
  refine Finset.sum_congr rfl fun h _ => ?_
  have el : lidx_main_v10 (ix2 (row b s) r) h = ix2 (row b s) h := funext fun a => Fin.ext (by
    match a with
    | ⟨0, _⟩ => rfl
    | ⟨1, _⟩ => rfl)
  have er : ridx_main_v10 (ix2 (row b s) r) h = ix2 h r := funext fun a => Fin.ext (by
    match a with
    | ⟨0, _⟩ => rfl
    | ⟨1, _⟩ => rfl)
  rw [el, er, xflat_apply, aT1_apply]

/-- The down-projection of target 2 at (row b s, r). -/
theorem down2_apply (x0 : FVec Ideal S4x2048x2048 .f32) (x2 : FVec Ideal S1x3x16x2048 .f32)
    (b : Fin 4) (s : Fin 2048) (r : Fin 16) :
    val_main_v14 (F := Ideal) x0 x2 (ix2 (row b s) r) = ∑ h : Fin 2048, x0 (ix3 b s h) * x2 (ix4 0 2 r h) := by
  rw [val_main_v14_apply]
  refine Finset.sum_congr rfl fun h _ => ?_
  have el : lidx_main_v14 (ix2 (row b s) r) h = ix2 (row b s) h := funext fun a => Fin.ext (by
    match a with
    | ⟨0, _⟩ => rfl
    | ⟨1, _⟩ => rfl)
  have er : ridx_main_v14 (ix2 (row b s) r) h = ix2 h r := funext fun a => Fin.ext (by
    match a with
    | ⟨0, _⟩ => rfl
    | ⟨1, _⟩ => rfl)
  rw [el, er, xflat_apply, aT2_apply]

/-- The transposed second factor of target 0 at (r, o') is its entry [0, o', r]. -/
theorem bT0_apply (y : FVec Ideal S1x2048x16 .f32) (r : Fin 16) (o' : Fin 2048) :
    val_main_v16 (F := Ideal) y (ix2 r o') = y (ix3 0 o' r) := by
  rw [val_main_v16_apply, val_main_v15_apply]
  congr 1
  funext a
  apply Fin.ext
  have hr := r.isLt
  have ho := o'.isLt
  match a with
  | ⟨0, _⟩ => rfl
  | ⟨1, _⟩ => show (o'.val * 16 + r.val) / 16 % 2048 = o'.val; omega
  | ⟨2, _⟩ => show (o'.val * 16 + r.val) % 16 = r.val; omega

/-- The transposed second factor of target 1 at (r, o') is its entry [0, o', r]. -/
theorem bT1_apply (y : FVec Ideal S1x512x16 .f32) (r : Fin 16) (o' : Fin 512) :
    val_main_v21 (F := Ideal) y (ix2 r o') = y (ix3 0 o' r) := by
  rw [val_main_v21_apply, val_main_v20_apply]
  congr 1
  funext a
  apply Fin.ext
  have hr := r.isLt
  have ho := o'.isLt
  match a with
  | ⟨0, _⟩ => rfl
  | ⟨1, _⟩ => show (o'.val * 16 + r.val) / 16 % 512 = o'.val; omega
  | ⟨2, _⟩ => show (o'.val * 16 + r.val) % 16 = r.val; omega

/-- The transposed second factor of target 2 at (r, o') is its entry [0, o', r]. -/
theorem bT2_apply (y : FVec Ideal S1x512x16 .f32) (r : Fin 16) (o' : Fin 512) :
    val_main_v26 (F := Ideal) y (ix2 r o') = y (ix3 0 o' r) := by
  rw [val_main_v26_apply, val_main_v25_apply]
  congr 1
  funext a
  apply Fin.ext
  have hr := r.isLt
  have ho := o'.isLt
  match a with
  | ⟨0, _⟩ => rfl
  | ⟨1, _⟩ => show (o'.val * 16 + r.val) / 16 % 512 = o'.val; omega
  | ⟨2, _⟩ => show (o'.val * 16 + r.val) % 16 = r.val; omega

/-- The scaled update of target 0 at (row b s, o'). -/
theorem delta0_apply (x0 : FVec Ideal S4x2048x2048 .f32) (x2 : FVec Ideal S1x3x16x2048 .f32)
    (y : FVec Ideal S1x2048x16 .f32) (b : Fin 4) (s : Fin 2048) (o' : Fin 2048) :
    val_main_v19 (F := Ideal) x0 x2 y (ix2 (row b s) o')
      = (∑ r : Fin 16, (∑ h : Fin 2048, x0 (ix3 b s h) * x2 (ix4 0 0 r h)) * y (ix3 0 o' r)) * Cert.Spec.two := by
  rw [val_main_v19_apply, val_main_v18_apply, val_main_cst_apply, val_main_v17_apply,
    Ideal.mulf_def, Ideal.ofBits_def]
  refine congrArg (· * Cert.Spec.two) ?_
  refine Finset.sum_congr rfl fun r _ => ?_
  have el : lidx_main_v17 (ix2 (row b s) o') r = ix2 (row b s) r := funext fun a => Fin.ext (by
    match a with
    | ⟨0, _⟩ => rfl
    | ⟨1, _⟩ => rfl)
  have er : ridx_main_v17 (ix2 (row b s) o') r = ix2 r o' := funext fun a => Fin.ext (by
    match a with
    | ⟨0, _⟩ => rfl
    | ⟨1, _⟩ => rfl)
  rw [el, er, down0_apply, bT0_apply]

/-- The scaled update of target 1 at (row b s, o'). -/
theorem delta1_apply (x0 : FVec Ideal S4x2048x2048 .f32) (x2 : FVec Ideal S1x3x16x2048 .f32)
    (y : FVec Ideal S1x512x16 .f32) (b : Fin 4) (s : Fin 2048) (o' : Fin 512) :
    val_main_v24 (F := Ideal) x0 x2 y (ix2 (row b s) o')
      = (∑ r : Fin 16, (∑ h : Fin 2048, x0 (ix3 b s h) * x2 (ix4 0 1 r h)) * y (ix3 0 o' r)) * Cert.Spec.two := by
  rw [val_main_v24_apply, val_main_v23_apply, val_main_cst_0_apply, val_main_v22_apply,
    Ideal.mulf_def, Ideal.ofBits_def]
  refine congrArg (· * Cert.Spec.two) ?_
  refine Finset.sum_congr rfl fun r _ => ?_
  have el : lidx_main_v22 (ix2 (row b s) o') r = ix2 (row b s) r := funext fun a => Fin.ext (by
    match a with
    | ⟨0, _⟩ => rfl
    | ⟨1, _⟩ => rfl)
  have er : ridx_main_v22 (ix2 (row b s) o') r = ix2 r o' := funext fun a => Fin.ext (by
    match a with
    | ⟨0, _⟩ => rfl
    | ⟨1, _⟩ => rfl)
  rw [el, er, down1_apply, bT1_apply]

/-- The scaled update of target 2 at (row b s, o'). -/
theorem delta2_apply (x0 : FVec Ideal S4x2048x2048 .f32) (x2 : FVec Ideal S1x3x16x2048 .f32)
    (y : FVec Ideal S1x512x16 .f32) (b : Fin 4) (s : Fin 2048) (o' : Fin 512) :
    val_main_v29 (F := Ideal) x0 x2 y (ix2 (row b s) o')
      = (∑ r : Fin 16, (∑ h : Fin 2048, x0 (ix3 b s h) * x2 (ix4 0 2 r h)) * y (ix3 0 o' r)) * Cert.Spec.two := by
  rw [val_main_v29_apply, val_main_v28_apply, val_main_cst_1_apply, val_main_v27_apply,
    Ideal.mulf_def, Ideal.ofBits_def]
  refine congrArg (· * Cert.Spec.two) ?_
  refine Finset.sum_congr rfl fun r _ => ?_
  have el : lidx_main_v27 (ix2 (row b s) o') r = ix2 (row b s) r := funext fun a => Fin.ext (by
    match a with
    | ⟨0, _⟩ => rfl
    | ⟨1, _⟩ => rfl)
  have er : ridx_main_v27 (ix2 (row b s) o') r = ix2 r o' := funext fun a => Fin.ext (by
    match a with
    | ⟨0, _⟩ => rfl
    | ⟨1, _⟩ => rfl)
  rw [el, er, down2_apply, bT2_apply]

/-- The joined update at a column of target 0's span is target 0's update at the column less the span's start. -/
theorem cat0_apply (x0 : FVec Ideal S4x2048x2048 .f32) (x2 : FVec Ideal S1x3x16x2048 .f32)
    (x3 : FVec Ideal S1x2048x16 .f32) (x4 x5 : FVec Ideal S1x512x16 .f32)
    (n : Fin 8192) (o : Fin 3072) (o' : Fin 2048) (ho : 0 + o'.val = o.val) :
    val_main_v30 (F := Ideal) x0 x2 x3 x4 x5 (ix2 n o) = val_main_v19 (F := Ideal) x0 x2 x3 (ix2 n o') := by
  unfold val_main_v30
  refine concatenate_apply_piece (1 : Fin S8192x3072.rank) _ _ (ix2 n o) 0 (by show (0 : Nat) < 3; omega) S8192x2048
    (val_main_v19 (F := Ideal) x0 x2 x3) rfl rfl 0 rfl (ix2 n o') ?_ ?_
  · intro c hc
    match c with
    | ⟨0, _⟩ => rfl
    | ⟨1, _⟩ => exact absurd (Fin.ext rfl) hc
  · exact ho

/-- The joined update at a column of target 1's span is target 1's update at the column less the span's start. -/
theorem cat1_apply (x0 : FVec Ideal S4x2048x2048 .f32) (x2 : FVec Ideal S1x3x16x2048 .f32)
    (x3 : FVec Ideal S1x2048x16 .f32) (x4 x5 : FVec Ideal S1x512x16 .f32)
    (n : Fin 8192) (o : Fin 3072) (o' : Fin 512) (ho : 2048 + o'.val = o.val) :
    val_main_v30 (F := Ideal) x0 x2 x3 x4 x5 (ix2 n o) = val_main_v24 (F := Ideal) x0 x2 x4 (ix2 n o') := by
  unfold val_main_v30
  refine concatenate_apply_piece (1 : Fin S8192x3072.rank) _ _ (ix2 n o) 1 (by show (1 : Nat) < 3; omega) S8192x512
    (val_main_v24 (F := Ideal) x0 x2 x4) rfl rfl 2048 rfl (ix2 n o') ?_ ?_
  · intro c hc
    match c with
    | ⟨0, _⟩ => rfl
    | ⟨1, _⟩ => exact absurd (Fin.ext rfl) hc
  · exact ho

/-- The joined update at a column of target 2's span is target 2's update at the column less the span's start. -/
theorem cat2_apply (x0 : FVec Ideal S4x2048x2048 .f32) (x2 : FVec Ideal S1x3x16x2048 .f32)
    (x3 : FVec Ideal S1x2048x16 .f32) (x4 x5 : FVec Ideal S1x512x16 .f32)
    (n : Fin 8192) (o : Fin 3072) (o' : Fin 512) (ho : 2560 + o'.val = o.val) :
    val_main_v30 (F := Ideal) x0 x2 x3 x4 x5 (ix2 n o) = val_main_v29 (F := Ideal) x0 x2 x5 (ix2 n o') := by
  unfold val_main_v30
  refine concatenate_apply_piece (1 : Fin S8192x3072.rank) _ _ (ix2 n o) 2 (by show (2 : Nat) < 3; omega) S8192x512
    (val_main_v29 (F := Ideal) x0 x2 x5) rfl rfl 2560 rfl (ix2 n o') ?_ ?_
  · intro c hc
    match c with
    | ⟨0, _⟩ => rfl
    | ⟨1, _⟩ => exact absurd (Fin.ext rfl) hc
  · exact ho

/-- The reference's result at (b, s, o) is the base projection plus the scaled low-rank update of column o's target. -/
theorem ref_apply (x0 : FVec Ideal S4x2048x2048 .f32) (x1 : FVec Ideal S3072x2048 .f32)
    (x2 : FVec Ideal S1x3x16x2048 .f32) (x3 : FVec Ideal S1x2048x16 .f32) (x4 x5 : FVec Ideal S1x512x16 .f32)
    (b : Fin 4) (s : Fin 2048) (o : Fin 3072) :
    val_main_v32 (F := Ideal) x0 x1 x2 x3 x4 x5 (ix3 b s o) = Cert.Spec.refOut x0 x1 x2 x3 x4 x5 b s o := by
  have hi : idx_main_v32 (ix3 b s o) = ix2 (row b s) o := funext fun a => Fin.ext (by
    have hb := b.isLt
    have hs := s.isLt
    have ho := o.isLt
    match a with
    | ⟨0, _⟩ => show ((b.val * 2048 + s.val) * 3072 + o.val) / 3072 = b.val * 2048 + s.val; omega
    | ⟨1, _⟩ => show ((b.val * 2048 + s.val) * 3072 + o.val) % 3072 = o.val; omega)
  rw [val_main_v32_apply, hi, val_main_v31_apply, Ideal.addf_def, base_apply]
  unfold Cert.Spec.refOut
  refine congrArg (_ + ·) ?_
  by_cases h1 : o.val < 2048
  · -- a query column
    have ht : Cert.Spec.tgt o = 0 := if_pos h1
    have hb : ∀ r : Fin 16, Cert.Spec.brow x3 x4 x5 o r = x3 (ix3 0 ⟨o.val, h1⟩ r) := fun r => dif_pos h1
    rw [cat0_apply x0 x2 x3 x4 x5 (row b s) o ⟨o.val, h1⟩ (Nat.zero_add _), delta0_apply, ht]
    simp only [hb]
  · by_cases h2 : o.val < 2560
    · -- a key column
      have ht : Cert.Spec.tgt o = 1 := by unfold Cert.Spec.tgt; rw [if_neg h1, if_pos h2]
      have hb : ∀ r : Fin 16, Cert.Spec.brow x3 x4 x5 o r = x4 (ix3 0 ⟨o.val - 2048, by omega⟩ r) := fun r => by
        unfold Cert.Spec.brow; rw [dif_neg h1, dif_pos h2]
      rw [cat1_apply x0 x2 x3 x4 x5 (row b s) o ⟨o.val - 2048, by omega⟩ (by show 2048 + (o.val - 2048) = o.val; omega),
        delta1_apply, ht]
      simp only [hb]
    · -- a value column
      have ho := o.isLt
      have ht : Cert.Spec.tgt o = 2 := by unfold Cert.Spec.tgt; rw [if_neg h1, if_neg h2]
      have hb : ∀ r : Fin 16, Cert.Spec.brow x3 x4 x5 o r = x5 (ix3 0 ⟨o.val - 2560, by omega⟩ r) := fun r => by
        unfold Cert.Spec.brow; rw [dif_neg h1, dif_neg h2]
      rw [cat2_apply x0 x2 x3 x4 x5 (row b s) o ⟨o.val - 2560, by omega⟩ (by show 2560 + (o.val - 2560) = o.val; omega),
        delta2_apply, ht]
      simp only [hb]

end Cert.RefSide

end
-- ==== Proof.LibFinite.lean ====
/-
  Finite extended reals and the operations that keep them finite.

  An extended real is FINITE when it is the cast of a real number. The laws that fail at the infinities
  (distributivity, cancelling a subtraction, moving a factor across a sum) hold between finite values, so a proof that
  needs one of them first shows that the values it is applied to are finite. Finite values are closed under sums,
  differences, products, finite sums, maxima, the quotient by a nonzero finite value, and the reciprocal square root of
  a positive one; a scatter that ADDS finite updates into a finite array leaves it finite, whatever the indices say
  (an entry receives the sum of the updates that land on it, a finite sum, possibly empty).
-/
import Mathlib.Data.EReal.Operations
import Mathlib.Algebra.BigOperators.Ring.Finset
import Idealize.ShloMosaic.PureOps.Ideal

namespace Cert.Finite

open Idealize.ShloMosaic

/-- The extended real `x` is the cast of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Finite is: neither infinity. -/
theorem isReal_iff {x : EReal} : IsReal x ↔ x ≠ ⊤ ∧ x ≠ ⊥ := by
  refine ⟨fun h => ⟨h.ne_top, h.ne_bot⟩, fun ⟨ht, hb⟩ => ?_⟩
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero finite one is finite. -/
theorem IsReal.div_coe {x : EReal} (hx : IsReal x) {y : ℝ} (hy : y ≠ 0) : IsReal (Ideal.div x (y : EReal)) := by
  rw [Ideal.div_coe hy]; exact hx.mul (isReal_coe _)

/-- In particular by a finite value that is at least one (a count of neighbours clamped from below at one). -/
theorem IsReal.div_of_one_le {x y : EReal} (hx : IsReal x) (hy : IsReal y) (h1 : 1 ≤ y) : IsReal (Ideal.div x y) := by
  obtain ⟨b, rfl⟩ := hy
  have hb : (1 : ℝ) ≤ b := by exact_mod_cast h1
  exact hx.div_coe (by linarith : b ≠ 0)

/-- The reciprocal square root of a positive finite value is finite. -/
theorem isReal_rsqrt_of_pos {r : ℝ} (hr : 0 < r) : IsReal (Ideal.rsqrt (r : EReal)) := by
  rw [Ideal.rsqrt_coe, if_neg (not_lt.2 hr.le), if_neg hr.ne']
  exact isReal_coe _

/-- A row of a matrix product: the sum of the products of finite entries is finite. -/
theorem isReal_dot {K : Type*} [Fintype K] (a b : K → EReal) (ha : ∀ k, IsReal (a k)) (hb : ∀ k, IsReal (b k)) :
    IsReal (∑ k, a k * b k) :=
  IsReal.sum _ _ fun k _ => (ha k).mul (hb k)

/-- A scatter that adds finite updates into a finite array leaves every entry finite, whatever the indices are. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

end Cert.Finite
-- ==== Proof.LibRealSums.lean ====
/-
  Finite sums of real numbers read in the extended reals.

  The extended reals are a commutative monoid under addition, so a finite sum may be regrouped and reordered at will, the
  infinities included; what fails at the infinities is distributivity, and with it the associativity of a product of three
  matrices. Here: the cast of a finite real sum is the sum of the casts; for REAL-valued factors the two ways of
  associating a triple product agree entry by entry; and a sum over `Fin (m + d)` whose last `d` terms vanish is the sum
  of its first `m` terms (a contraction padded with zeros, or cut by a mask, is the unpadded contraction).
-/
import Mathlib.Data.EReal.Operations
import Mathlib.Algebra.BigOperators.Fin
import Mathlib.Algebra.BigOperators.Ring.Finset

namespace Cert.RealSums

open Finset

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: `∑ₖ (∑ⱼ aⱼ bⱼₖ) cₖ = ∑ⱼ aⱼ (∑ₖ bⱼₖ cₖ)`, one row `a` of the left factor against one column `c`
    of the right one. -/
theorem assoc_row_col {J K : Type*} [Fintype J] [Fintype K] (a : J → ℝ) (b : J → K → ℝ) (c : K → ℝ) :
    (∑ k, (∑ j, a j * b j k) * c k) = ∑ j, a j * ∑ k, b j k * c k := by
  simp only [Finset.sum_mul, Finset.mul_sum]
  rw [Finset.sum_comm]
  exact Finset.sum_congr rfl fun j _ => Finset.sum_congr rfl fun k _ => by ring

/-- The same read in the extended reals, each factor the cast of a real: `(A·B)·C` and `A·(B·C)` have equal entries
    when `A`'s row, `B` and `C`'s column are finite. -/
theorem assoc_row_col_coe {J K : Type*} [Fintype J] [Fintype K] (a : J → ℝ) (b : J → K → ℝ) (c : K → ℝ) :
    (∑ k, (∑ j, (a j : EReal) * (b j k : EReal)) * (c k : EReal))
      = ∑ j, (a j : EReal) * ∑ k, (b j k : EReal) * (c k : EReal) := by
  simp only [← EReal.coe_mul, ← coe_sum]
  rw [assoc_row_col]

/-- A sum over `Fin (m + d)` whose last `d` terms vanish is the sum of its first `m` terms. -/
theorem sum_castAdd_of_tail_zero {M : Type*} [AddCommMonoid M] {m d : ℕ} (f : Fin (m + d) → M)
    (hz : ∀ i : Fin d, f (Fin.natAdd m i) = 0) : ∑ i, f i = ∑ i : Fin m, f (Fin.castAdd d i) := by
  rw [Fin.sum_univ_add, Finset.sum_eq_zero (fun i _ => hz i), add_zero]

/-- A sum over `Fin (m + d)` is the sum of its first `m` terms plus the sum of its last `d` (a contraction done as a head
    product and a tail product). -/
theorem sum_head_add_tail {M : Type*} [AddCommMonoid M] {m d : ℕ} (f : Fin (m + d) → M) :
    ∑ i, f i = (∑ i : Fin m, f (Fin.castAdd d i)) + ∑ i : Fin d, f (Fin.natAdd m i) :=
  Fin.sum_univ_add f

end Cert.RealSums
-- ==== Proof.Bridge.lean ====
/-
  The folded weight computes the same output as the two-step low-rank update.

  Fix a batch row (b, s) and an output column o with target t = tgt o. Write X h = x(b, s, h), W h = w(o, h),
  β r = brow o r and α r h = a(0, t, r, h).

  * The 48 columns of the block-diagonal arrangement split as 3 blocks of 16: column c = 16·t' + r'. Row o of the
    arrangement vanishes outside block t, so  ∑_c bbd o c · a48 c h = ∑_r β r · α r h.
  * Then  ∑_h X h · (W h + (∑_r β r · α r h)·2) = ∑_h X h · W h + (∑_r (∑_h X h · α r h) · β r)·2.
    This is distributivity, an exchange of the two finite sums, and commutativity: laws of the real numbers. In the
    extended reals distributivity fails at the infinities, so the identity is proved for entries that are casts of reals
    (the finiteness hypotheses), and the scaling word is the real number 2.
-/
import proofs.«137313_g11295763988854_cont_week2b_339_11_alg».proof.Proof.Spec
import proofs.«137313_g11295763988854_cont_week2b_339_11_alg».proof.Proof.LibFinite
import proofs.«137313_g11295763988854_cont_week2b_339_11_alg».proof.Proof.LibRealSums
import Mathlib.Algebra.BigOperators.Fin
import Mathlib.Logic.Equiv.Fin.Basic

noncomputable section

namespace Cert.Bridge

open Idealize.ShloMosaic Idealize.ShloMosaic.ValueIdx Cert.Finite Cert.Spec

/-- The scaling word denotes the real number 2. -/
theorem two_eq : Cert.Spec.two = ((2 : ℝ) : EReal) := by
  unfold Cert.Spec.two
  simp [Ideal.ofBits, Ideal.ieee, -EReal.coe_mul]
  norm_num

/-- A sum over 48 = 3 · 16 columns, column c read as block c / 16 and offset c % 16, is the sum over the blocks of the
    sums over the offsets. -/
theorem sum_blocks {M : Type*} [AddCommMonoid M] (g : Fin 3 → Fin 16 → M) :
    (∑ c : Fin 48, g ⟨c.val / 16, by have := c.isLt; omega⟩ ⟨c.val % 16, Nat.mod_lt _ (by norm_num)⟩)
      = ∑ t : Fin 3, ∑ r : Fin 16, g t r := by
  rw [← Fintype.sum_prod_type']
  exact Fintype.sum_equiv (finProdFinEquiv (m := 3) (n := 16)).symm _ _ (fun c => rfl)

/-- Row o of the block-diagonal arrangement against column h of the stacked first factors: only the block of o's own
    target contributes. -/
theorem sum_bbd (a : (⟨4, ![1, 3, 16, 2048]⟩ : Shape).Idx → EReal)
    (bq : (⟨3, ![1, 2048, 16]⟩ : Shape).Idx → EReal) (bk bv : (⟨3, ![1, 512, 16]⟩ : Shape).Idx → EReal)
    (o : Fin 3072) (h : Fin 2048) :
    (∑ c : Fin 48, bbd bq bk bv o c * a48 a c h) = ∑ r : Fin 16, brow bq bk bv o r * a (ix4 0 (tgt o) r h) := by
  refine (sum_blocks (fun t r => (if t.val = (tgt o).val then brow bq bk bv o r else 0) * a (ix4 0 t r h))).trans ?_
  rw [Finset.sum_eq_single (tgt o)]
  · exact Finset.sum_congr rfl fun r _ => by rw [if_pos rfl]
  · intro t _ hne
    refine Finset.sum_eq_zero fun r _ => ?_
    rw [if_neg (fun e => hne (Fin.ext e)), zero_mul]
  · intro hn
    exact absurd (Finset.mem_univ _) hn

/-- The law over the real numbers: a row X against the folded column W + (βᵀ·α)·2 is the base product plus the scaled
    two-step product. -/
theorem real_law {H R : Type*} [Fintype H] [Fintype R] (X W : H → ℝ) (β : R → ℝ) (α : R → H → ℝ) :
    (∑ h, X h * (W h + (∑ r, β r * α r h) * 2)) = (∑ h, X h * W h) + (∑ r, (∑ h, X h * α r h) * β r) * 2 := by
  simp only [mul_add, Finset.sum_add_distrib]
  congr 1
  simp only [Finset.sum_mul, Finset.mul_sum]
  rw [Finset.sum_comm]
  exact Finset.sum_congr rfl fun r _ => Finset.sum_congr rfl fun h _ => by ring

/-- The same law in the extended reals, between entries that are casts of reals. -/
theorem ereal_law {H R : Type*} [Fintype H] [Fintype R] (X W : H → EReal) (β : R → EReal) (α : R → H → EReal)
    (hX : ∀ h, IsReal (X h)) (hW : ∀ h, IsReal (W h)) (hβ : ∀ r, IsReal (β r)) (hα : ∀ r h, IsReal (α r h)) :
    (∑ h, X h * (W h + (∑ r, β r * α r h) * ((2 : ℝ) : EReal)))
      = (∑ h, X h * W h) + (∑ r, (∑ h, X h * α r h) * β r) * ((2 : ℝ) : EReal) := by
  choose Xr hXr using hX
  choose Wr hWr using hW
  choose βr hβr using hβ
  choose αr hαr using hα
  simp only [hXr, hWr, hβr, hαr, ← EReal.coe_mul, ← EReal.coe_add, ← Cert.RealSums.coe_sum]
  rw [real_law]

/-- Row o of the second factor of o's target is finite when the three second factors are. -/
theorem isReal_brow (bq : (⟨3, ![1, 2048, 16]⟩ : Shape).Idx → EReal) (bk bv : (⟨3, ![1, 512, 16]⟩ : Shape).Idx → EReal)
    (hbq : ∀ i, IsReal (bq i)) (hbk : ∀ i, IsReal (bk i)) (hbv : ∀ i, IsReal (bv i)) (o : Fin 3072) (r : Fin 16) :
    IsReal (brow bq bk bv o r) := by
  unfold brow
  split_ifs
  · exact hbq _
  · exact hbk _
  · exact hbv _

/-- The kernel's output entry equals the reference's, for finite arguments. -/
theorem ker_eq_ref (x : (⟨3, ![4, 2048, 2048]⟩ : Shape).Idx → EReal) (w : (⟨2, ![3072, 2048]⟩ : Shape).Idx → EReal)
    (a : (⟨4, ![1, 3, 16, 2048]⟩ : Shape).Idx → EReal) (bq : (⟨3, ![1, 2048, 16]⟩ : Shape).Idx → EReal)
    (bk bv : (⟨3, ![1, 512, 16]⟩ : Shape).Idx → EReal)
    (hx : ∀ i, Cert.Finite.IsReal (x i)) (hw : ∀ i, Cert.Finite.IsReal (w i)) (ha : ∀ i, Cert.Finite.IsReal (a i))
    (hbq : ∀ i, Cert.Finite.IsReal (bq i)) (hbk : ∀ i, Cert.Finite.IsReal (bk i))
    (hbv : ∀ i, Cert.Finite.IsReal (bv i)) (b : Fin 4) (s : Fin 2048) (o : Fin 3072) :
    Cert.Spec.kerOut x w a bq bk bv b s o = Cert.Spec.refOut x w a bq bk bv b s o := by
  unfold Cert.Spec.kerOut Cert.Spec.refOut Cert.Spec.weff
  rw [two_eq]
  simp only [sum_bbd]
  exact ereal_law (fun h => x (ix3 b s h)) (fun h => w (ix2 o h)) (fun r => brow bq bk bv o r)
    (fun r h => a (ix4 0 (tgt o) r h)) (fun h => hx _) (fun h => hw _) (fun r => isReal_brow bq bk bv hbq hbk hbv o r)
    (fun r h => ha _)

end Cert.Bridge

end
-- ==== Proof.LibAllFinite.lean ====
/-
  A precondition's "every entry is finite" test, read back at an entry.

  A printed precondition tests an array by comparing each entry's absolute value against the value of the word
  0x7F800000, which is +inf, and folding the comparisons with "and" into one bit. When that bit is 1 every comparison
  is 1; an extended real whose absolute value is strictly below +inf is neither infinity, so it is the cast of a
  real number. Stated for an array of any shape reduced over any axes into a single bit.
-/
import proofs.«137313_g11295763988854_cont_week2b_339_11_alg».proof.Proof.LibFinite
import Idealize.ShloMosaic.Lib.ReduceAll
import Idealize.ShloMosaic.Lib.ValueIdx
import Idealize.ShloMosaic.Lib.Pipeline.Value
import Idealize.ShloMosaic.PureOps.Ideal.Laws

noncomputable section

namespace Cert.Lib.AllFinite

open Idealize.ShloMosaic Idealize.ShloMosaic.ValueIdx Cert.Finite

/-- The shape of a single bit has one index. -/
instance : Subsingleton (⟨0, ![]⟩ : Shape).Idx := ⟨fun a b => funext fun d => d.elim0⟩

/-- The word 0x7F800000 denotes +inf. -/
theorem inf_word : Ideal.ofBits .f32 0x7F800000#32 = ⊤ := by
  simp [Ideal.ofBits, Ideal.ieee]

/-- An extended real whose absolute value compares below +inf is the cast of a real. -/
theorem isReal_of_abs_lt (x : EReal) (h : Ideal.cmp .olt (max x (-x)) (Ideal.ofBits .f32 0x7F800000#32) = 1#1) :
    IsReal x := by
  rw [inf_word] at h
  induction x using EReal.rec with
  | bot => simp [Ideal.cmp] at h
  | coe r => exact ⟨r, rfl⟩
  | top => simp [Ideal.cmp] at h

/-- One array's test, read at an index: if the fold by "and" of the comparisons |a_i| < +inf, started from 1, is 1,
    then every entry of the array is the cast of a real. -/
theorem entry_of_all {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi
        (cmpf .olt (Host.absf a) (broadcastInDim s ![] hb (constant (F := Ideal) ⟨0, ![]⟩ .f32 0x7F800000#32)))
        (constantI ⟨0, ![]⟩ 1 1#1) hr hu j = 1#1) (i : s.Idx) : IsReal (a i) := by
  have h := Host.reduce_andi_all _ _ hr hu j e i
  refine isReal_of_abs_lt (a i) ?_
  rw [cmpf_apply, broadcastInDim_apply _ hb _ i (fun d => d.elim0) (fun d => d.elim0)] at h
  exact h

end Cert.Lib.AllFinite

end
-- ==== Proof.FiniteArgs.lean ====
/-
  From the precondition to "every entry of every argument is a real number".

  The precondition tests the six argument arrays one after the other: for each array it compares every entry's absolute
  value with +inf, folds the comparisons by "and" into one bit, and joins the six bits by "and". When the joined bit is 1
  each of the six bits is 1, and then every entry of the corresponding array is the cast of a real.
-/
import proofs.«137313_g11295763988854_cont_week2b_339_11_alg».proof.Defs
import proofs.«137313_g11295763988854_cont_week2b_339_11_alg».proof.Proof.Gen.Pre_finite_inputs
import proofs.«137313_g11295763988854_cont_week2b_339_11_alg».proof.Proof.LibAllFinite

noncomputable section

namespace Cert.FiniteArgs

open Idealize.ShloMosaic Idealize.ShloMosaic.ValueIdx Cert.Finite Cert.Pre_finite_inputs

/-- If the precondition evaluates to the bit 1, every entry of each of the six arguments is the cast of a real. -/
theorem args_real [Cert.Pre_finite_inputs.Facts] (x0 : FVec Ideal Cert.Pre_finite_inputs.S4x2048x2048 .f32)
    (x1 : FVec Ideal Cert.Pre_finite_inputs.S3072x2048 .f32) (x2 : FVec Ideal Cert.Pre_finite_inputs.S1x3x16x2048 .f32)
    (x3 : FVec Ideal Cert.Pre_finite_inputs.S1x2048x16 .f32) (x4 x5 : FVec Ideal Cert.Pre_finite_inputs.S1x512x16 .f32)
    (h : Cert.Pre_finite_inputs.fn (F := Ideal) x0 x1 x2 x3 x4 x5 = fun _ => 1#1) :
    (∀ i, Cert.Finite.IsReal (x0 i)) ∧ (∀ i, Cert.Finite.IsReal (x1 i)) ∧ (∀ i, Cert.Finite.IsReal (x2 i))
      ∧ (∀ i, Cert.Finite.IsReal (x3 i)) ∧ (∀ i, Cert.Finite.IsReal (x4 i)) ∧ (∀ i, Cert.Finite.IsReal (x5 i)) := by
  have h0 := congrFun h ValueIdx.ix0
  dsimp only [Cert.Pre_finite_inputs.fn, Cert.Pre_finite_inputs.fn_part1, andi] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨Cert.Lib.AllFinite.entry_of_all x0 _ _ _ _ e0, Cert.Lib.AllFinite.entry_of_all x1 _ _ _ _ e1,
    Cert.Lib.AllFinite.entry_of_all x2 _ _ _ _ e2, Cert.Lib.AllFinite.entry_of_all x3 _ _ _ _ e3,
    Cert.Lib.AllFinite.entry_of_all x4 _ _ _ _ e4, Cert.Lib.AllFinite.entry_of_all x5 _ _ _ _ e5⟩

end Cert.FiniteArgs

end
-- ==== Proof.lean ====
/-
  A fused query/key/value projection with a low-rank update, computed two ways.

  Inputs: activations x[4, 2048, 2048], a projection weight w[3072, 2048] whose rows are the 2048 query, 512 key and
  512 value outputs, three first factors a[0, t, r, ·] (t = 0, 1, 2; r < 16) and three second factors bq, bk, bv.

  * The reference computes x·wᵀ and adds to the columns of each target t the update ((x·aₜᵀ)·bₜᵀ)·2.
  * The kernel first folds the update into the weight — the three second factors arranged block-diagonally in a
    [3072, 48] matrix B, the three first factors stacked in a [48, 2048] matrix A, W' = w + (B·A)·2 — and then multiplies
    once, x·W'ᵀ. It is two pipelined regions (the fold over eight blocks of rows of the weight, the product over eight
    blocks of rows of the activations) between host reshapes and three window sets that build B.

  On the extended reals every change of float format is the identity, so entry (b, s, o) of the kernel's result is
  ∑ h, x(b, s, h) · (w(o, h) + (∑ c, B(o, c) · A(c, h)) · 2) and the reference's is
  ∑ h, x(b, s, h) · w(o, h) + (∑ r, (∑ h, x(b, s, h) · a(0, t, r, h)) · bₜ(o, r)) · 2 with t the target of column o.
  Row o of B is zero outside the sixteen columns of its own target, so the inner sum over c is ∑ r, bₜ(o, r) · a(0, t, r, h);
  the two sides are then equal by distributivity and an exchange of the two finite sums. Distributivity fails at the
  infinities of the extended reals: the equality uses that every input entry is finite, which is the precondition.

  The frames of both kernel programs are the generated ones; the reference's frame is its generated run. The kernel's
  run is restated with its result buffer named; its value is read off the two regions' proof data block by block.
-/
import proofs.«137313_g11295763988854_cont_week2b_339_11_alg».proof.Defs
import proofs.«137313_g11295763988854_cont_week2b_339_11_alg».proof.Proof.Gen.Kernel
import proofs.«137313_g11295763988854_cont_week2b_339_11_alg».proof.Proof.Gen.Kernel.Skeleton
import proofs.«137313_g11295763988854_cont_week2b_339_11_alg».proof.Proof.Gen.Kernel.Launch
import proofs.«137313_g11295763988854_cont_week2b_339_11_alg».proof.Proof.Gen.Kernel.Points
import proofs.«137313_g11295763988854_cont_week2b_339_11_alg».proof.Proof.Gen.Kernel.Frame
import proofs.«137313_g11295763988854_cont_week2b_339_11_alg».proof.Proof.Gen.KernelIdeal
import proofs.«137313_g11295763988854_cont_week2b_339_11_alg».proof.Proof.Gen.KernelIdeal.Skeleton
import proofs.«137313_g11295763988854_cont_week2b_339_11_alg».proof.Proof.Gen.KernelIdeal.Launch
import proofs.«137313_g11295763988854_cont_week2b_339_11_alg».proof.Proof.Gen.KernelIdeal.Points
import proofs.«137313_g11295763988854_cont_week2b_339_11_alg».proof.Proof.Gen.KernelIdeal.Frame
import proofs.«137313_g11295763988854_cont_week2b_339_11_alg».proof.Proof.Gen.ReferenceIdeal
import proofs.«137313_g11295763988854_cont_week2b_339_11_alg».proof.Proof.Gen.Pre_finite_inputs
import proofs.«137313_g11295763988854_cont_week2b_339_11_alg».proof.Proof.Gen.ReferenceIdeal.Run
import proofs.«137313_g11295763988854_cont_week2b_339_11_alg».proof.Proof.Gen.ReferenceIdeal.Read
import proofs.«137313_g11295763988854_cont_week2b_339_11_alg».proof.Proof.KerRun
import proofs.«137313_g11295763988854_cont_week2b_339_11_alg».proof.Proof.KerValue
import proofs.«137313_g11295763988854_cont_week2b_339_11_alg».proof.Proof.RefSide
import proofs.«137313_g11295763988854_cont_week2b_339_11_alg».proof.Proof.Bridge
import proofs.«137313_g11295763988854_cont_week2b_339_11_alg».proof.Proof.FiniteArgs
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with equal results: the kernel's result entry is `kerOut` of the arguments, the
    reference's is `refOut` of the same arguments, and for finite arguments the two agree. -/
theorem algebraic : Cert.algebraic_KernelIdeal_ReferenceIdeal := by
  intro m ρ m' ρ' hpre hagree
  refine ⟨fun c => Cert.KernelIdeal.Gen.W4 m ρ c (Proc.devRef .tc Cert.KernelIdeal.main_v21),
    Cert.KernelIdeal.KerRun.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2.1, (hagree c).2.2.2.1,
    (hagree c).2.2.2.2.1, (hagree c).2.2.2.2.2]
  funext i
  obtain ⟨b, s, o, rfl⟩ : ∃ (b : Fin 4) (s : Fin 2048) (o : Fin 3072), i = ix3 b s o := ⟨i 0, i 1, i 2, eq_ix3 i⟩
  refine (Cert.RefSide.ref_apply _ _ _ _ _ _ b s o).trans ?_
  refine Eq.trans ?_ (Cert.KernelIdeal.KerValue.result_apply m ρ c b s o).symm
  obtain ⟨h0, h1, h2, h3, h4, h5⟩ := Cert.FiniteArgs.args_real _ _ _ _ _ _ (hpre c)
  exact (Cert.Bridge.ker_eq_ref _ _ _ _ _ _ h0 h1 h2 h3 h4 h5 b s o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
